-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : FVec F S50000x128 .f32) (main_arg2 : FVec F S400000x128 .f32) (main_arg3 : IVec S400000 32) (main_arg4 : IVec S400000 32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S400000x128 : Shape := ⟨2, ![400000, 128]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S1x128 : Shape := ⟨2, ![1, 128]⟩
abbrev S4000x128 : Shape := ⟨2, ![4000, 128]⟩
abbrev S4000x384 : Shape := ⟨2, ![4000, 384]⟩
abbrev S4000 : Shape := ⟨1, ![4000]⟩
abbrev S4000x1 : Shape := ⟨2, ![4000, 1]⟩

abbrev nBuf : Space → Nat
  | .hbm => 65
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S400000x128, .f32⟩
  | .hbm, ⟨3, _⟩ => ⟨S400000, .i32⟩
  | .hbm, ⟨4, _⟩ => ⟨S400000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S400000, .i32⟩
  | .hbm, ⟨15, _⟩ => ⟨S400000, .i1⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S400000, .i32⟩
  | .hbm, ⟨20, _⟩ => ⟨S400000x1, .i32⟩
  | .hbm, ⟨21, _⟩ => ⟨S1, .i32⟩
  | .hbm, ⟨22, _⟩ => ⟨S_, .i32⟩
  | .hbm, ⟨23, _⟩ => ⟨S400000x1, .i32⟩
  | .hbm, ⟨24, _⟩ => ⟨S400000x1, .i1⟩
  | .hbm, ⟨25, _⟩ => ⟨S1x1, .i32⟩
  | .hbm, ⟨26, _⟩ => ⟨S400000x1, .i32⟩
  | .hbm, ⟨27, _⟩ => ⟨S400000x1, .i1⟩
  | .hbm, ⟨28, _⟩ => ⟨S400000x1, .i1⟩
  | .hbm, ⟨29, _⟩ => ⟨S_, .i1⟩
  | .hbm, ⟨30, _⟩ => ⟨S400000, .i1⟩
  | .hbm, ⟨31, _⟩ => ⟨S400000x128, .f32⟩
  | .hbm, ⟨32, _⟩ => ⟨S400000x128, .i1⟩
  | .hbm, ⟨33, _⟩ => ⟨S_, .f32⟩
  | .hbm, ⟨34, _⟩ => ⟨S400000x128, .f32⟩
  | .hbm, ⟨35, _⟩ => ⟨S400000x128, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S1, .i32⟩
  | .hbm, ⟨45, _⟩ => ⟨S_, .i32⟩
  | .hbm, ⟨46, _⟩ => ⟨S400000x1, .i32⟩
  | .hbm, ⟨47, _⟩ => ⟨S400000x1, .i1⟩
  | .hbm, ⟨48, _⟩ => ⟨S1x1, .i32⟩
  | .hbm, ⟨49, _⟩ => ⟨S400000x1, .i32⟩
  | .hbm, ⟨50, _⟩ => ⟨S400000x1, .i1⟩
  | .hbm, ⟨51, _⟩ => ⟨S400000x1, .i1⟩
  | .hbm, ⟨52, _⟩ => ⟨S_, .i1⟩
  | .hbm, ⟨53, _⟩ => ⟨S400000, .i1⟩
  | .hbm, ⟨54, _⟩ => ⟨S400000x128, .f32⟩
  | .hbm, ⟨55, _⟩ => ⟨S400000x128, .i1⟩
  | .hbm, ⟨56, _⟩ => ⟨S_, .f32⟩
  | .hbm, ⟨57, _⟩ => ⟨S400000x128, .f32⟩
  | .hbm, ⟨58, _⟩ => ⟨S400000x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S400000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S384x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x128_S4000x384_d1 : Shape.Concatenates [S4000x128, S4000x128, S4000x128] S4000x384 1
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  reduces_S4000x128_S4000 : S4000x128.Reduces [1] S4000
  shapeCasts_S4000_S4000x1 : S4000.ShapeCasts S4000x1
  broadcasts_S4000x1_S4000x128 : S4000x1.Broadcasts S4000x128
  gather_S50000x128_S400000x1_S400000x128_1_0_n_n_0_1_1128_wf : GatherDims.WF S50000x128 S400000x1 S400000x128 [1] [0] [] [0] [] 1 ![1, 128]
  dot_S4000x384_S384x128_S4000x128_1_0_0_1_n_n_wf : DotDims.WF S4000x384 S384x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S400000x128.size a
  hwx0_11 : ∀ i : grid0.Coords, EltTy.bits .f32 = 32 ∨ (Rect.block (s := S400000x128) S4000x128.size (cc0_transform_11 i) (hinb0_11 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x384 : Shape := ⟨2, ![400000, 384]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S400000x128, .f32⟩
  | .hbm, ⟨3, _⟩ => ⟨S400000, .i32⟩
  | .hbm, ⟨4, _⟩ => ⟨S400000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S400000, .i32⟩
  | .hbm, ⟨15, _⟩ => ⟨S400000, .i1⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S400000, .i32⟩
  | .hbm, ⟨20, _⟩ => ⟨S400000x1, .i32⟩
  | .hbm, ⟨21, _⟩ => ⟨S1, .i32⟩
  | .hbm, ⟨22, _⟩ => ⟨S_, .i32⟩
  | .hbm, ⟨23, _⟩ => ⟨S400000x1, .i32⟩
  | .hbm, ⟨24, _⟩ => ⟨S400000x1, .i1⟩
  | .hbm, ⟨25, _⟩ => ⟨S1x1, .i32⟩
  | .hbm, ⟨26, _⟩ => ⟨S400000x1, .i32⟩
  | .hbm, ⟨27, _⟩ => ⟨S400000x1, .i1⟩
  | .hbm, ⟨28, _⟩ => ⟨S400000x1, .i1⟩
  | .hbm, ⟨29, _⟩ => ⟨S_, .i1⟩
  | .hbm, ⟨30, _⟩ => ⟨S400000, .i1⟩
  | .hbm, ⟨31, _⟩ => ⟨S400000x128, .f32⟩
  | .hbm, ⟨32, _⟩ => ⟨S400000x128, .i1⟩
  | .hbm, ⟨33, _⟩ => ⟨S_, .f32⟩
  | .hbm, ⟨34, _⟩ => ⟨S400000x128, .f32⟩
  | .hbm, ⟨35, _⟩ => ⟨S400000x128, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S1, .i32⟩
  | .hbm, ⟨45, _⟩ => ⟨S_, .i32⟩
  | .hbm, ⟨46, _⟩ => ⟨S400000x1, .i32⟩
  | .hbm, ⟨47, _⟩ => ⟨S400000x1, .i1⟩
  | .hbm, ⟨48, _⟩ => ⟨S1x1, .i32⟩
  | .hbm, ⟨49, _⟩ => ⟨S400000x1, .i32⟩
  | .hbm, ⟨50, _⟩ => ⟨S400000x1, .i1⟩
  | .hbm, ⟨51, _⟩ => ⟨S400000x1, .i1⟩
  | .hbm, ⟨52, _⟩ => ⟨S_, .i1⟩
  | .hbm, ⟨53, _⟩ => ⟨S400000, .i1⟩
  | .hbm, ⟨54, _⟩ => ⟨S400000x128, .f32⟩
  | .hbm, ⟨55, _⟩ => ⟨S400000x128, .i1⟩
  | .hbm, ⟨56, _⟩ => ⟨S_, .f32⟩
  | .hbm, ⟨57, _⟩ => ⟨S400000x128, .f32⟩
  | .hbm, ⟨58, _⟩ => ⟨S400000x128, .f32⟩
  | .hbm, ⟨59, _⟩ => ⟨S400000x384, .f32⟩
  | .hbm, ⟨60, _⟩ => ⟨S400000x128, .f32⟩
  | .hbm, ⟨61, _⟩ => ⟨S1x128, .f32⟩
  | .hbm, ⟨62, _⟩ => ⟨S400000x128, .f32⟩
  | .hbm, ⟨63, _⟩ => ⟨S400000x128, .f32⟩
  | .hbm, ⟨64, _⟩ => ⟨S_, .f32⟩
  | .hbm, ⟨65, _⟩ => ⟨S400000x128, .f32⟩
  | .hbm, ⟨66, _⟩ => ⟨S400000x128, .f32⟩
  | .hbm, ⟨67, _⟩ => ⟨S400000x128, .f32⟩
  | .hbm, ⟨68, _⟩ => ⟨S1x128, .f32⟩
  | .hbm, ⟨69, _⟩ => ⟨S400000x128, .f32⟩
  | .hbm, ⟨70, _⟩ => ⟨S400000x128, .f32⟩
  | .hbm, ⟨71, _⟩ => ⟨S_, .f32⟩
  | .hbm, ⟨72, _⟩ => ⟨S400000x128, .f32⟩
  | .hbm, ⟨73, _⟩ => ⟨S400000x128, .f32⟩
  | .hbm, ⟨74, _⟩ => ⟨S400000x128, .f32⟩
  | .hbm, ⟨75, _⟩ => ⟨S1x128, .f32⟩
  | .hbm, ⟨76, _⟩ => ⟨S400000x128, .f32⟩
  | .hbm, ⟨77, _⟩ => ⟨S400000x128, .f32⟩
  | .hbm, ⟨78, _⟩ => ⟨S_, .f32⟩
  | .hbm, ⟨79, _⟩ => ⟨S400000, .f32⟩
  | .hbm, ⟨80, _⟩ => ⟨S400000x1, .f32⟩
  | .hbm, ⟨81, _⟩ => ⟨S_, .f32⟩
  | .hbm, ⟨82, _⟩ => ⟨S400000x1, .f32⟩
  | .hbm, ⟨83, _⟩ => ⟨S400000x1, .f32⟩
  | .hbm, ⟨84, _⟩ => ⟨S400000x128, .f32⟩
  | .hbm, ⟨85, _⟩ => ⟨S400000x128, .f32⟩
  | .hbm, ⟨86, _⟩ => ⟨S400000x128, .f32⟩
  | .hbm, ⟨87, _⟩ => ⟨S_, .f32⟩
  | .hbm, ⟨88, _⟩ => ⟨S400000, .f32⟩
  | .hbm, ⟨89, _⟩ => ⟨S400000x1, .f32⟩
  | .hbm, ⟨90, _⟩ => ⟨S_, .f32⟩
  | .hbm, ⟨91, _⟩ => ⟨S400000x1, .f32⟩
  | .hbm, ⟨92, _⟩ => ⟨S400000x1, .f32⟩
  | .hbm, ⟨93, _⟩ => ⟨S400000x128, .f32⟩
  | .hbm, ⟨94, _⟩ => ⟨S400000x128, .f32⟩
  | .hbm, ⟨95, _⟩ => ⟨S_, .f32⟩
  | .hbm, ⟨96, _⟩ => ⟨S400000x1, .f32⟩
  | .hbm, ⟨97, _⟩ => ⟨S400000x1, .f32⟩
  | .hbm, ⟨98, _⟩ => ⟨S400000x1, .f32⟩
  | .hbm, ⟨99, _⟩ => ⟨S400000x128, .f32⟩
  | .hbm, ⟨100, _⟩ => ⟨S400000x128, .f32⟩
  | .hbm, ⟨101, _⟩ => ⟨S1x128, .f32⟩
  | .hbm, ⟨102, _⟩ => ⟨S400000x128, .f32⟩
  | .hbm, ⟨103, _⟩ => ⟨S400000x128, .f32⟩
  | .hbm, ⟨104, _⟩ => ⟨S1x128, .f32⟩
  | .hbm, ⟨105, _⟩ => ⟨S400000x128, .f32⟩
  | .hbm, ⟨106, _⟩ => ⟨S400000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_call2_cst : Ref sig .tc := ⟨.hbm, 64, rfl⟩
abbrev main_call2_v0 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_call3_cst : Ref sig .tc := ⟨.hbm, 71, rfl⟩
abbrev main_call3_v0 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_cst : Ref sig .tc := ⟨.hbm, 78, rfl⟩
abbrev main_v17 : Ref sig .tc := ⟨.hbm, 79, rfl⟩
abbrev main_v18 : Ref sig .tc := ⟨.hbm, 80, rfl⟩
abbrev main_cst_0 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst_1 : Ref sig .tc := ⟨.hbm, 87, rfl⟩
abbrev main_v24 : Ref sig .tc := ⟨.hbm, 88, rfl⟩
abbrev main_v25 : Ref sig .tc := ⟨.hbm, 89, rfl⟩
abbrev main_cst_2 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_3 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  reducesTo_S400000x128_S400000_d1 : S400000x128.ReducesTo [1] S400000
  bcast_S400000x1_S400000x128_0_1 : S400000x1.BroadcastsInDim S400000x128 (![0, 1] : Fin 2 → Fin S400000x128.rank)
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.KernelDots.lean ====
/-
  The two matrix products of the kernel's body, read at an entry: the block's row `p` against the matrix's column `q`,
  summed over the shared coordinate.
-/
import proofs.«117457_j70944269796072_1_alg».proof.Proof.Gen.KernelIdeal
import Idealize.ShloMosaic.PureOps.Ideal.Laws
import Idealize.ShloMosaic.Lib.ValueIdx

noncomputable section

namespace Cert.KernelIdeal.Dots

open Cert.KernelIdeal Idealize.ShloMosaic Idealize.ShloMosaic.ValueIdx

/-- Coordinates of the operand indices of the 4000 × 384 by 384 × 128 product at output index `i` and contraction index `q`. -/
theorem wide_lhs0 (i : S4000x128.Idx) (q : dot_S4000x384_S384x128_S4000x128_1_0_0_1_n_n.contr.Idx) : (dot_S4000x384_S384x128_S4000x128_1_0_0_1_n_n.lhsIdx i q 0).val = (i 0).val := by
  unfold DotDims.lhsIdx
  rw [dif_neg (show ¬(0 : Fin S4000x384.rank) ∈ dot_S4000x384_S384x128_S4000x128_1_0_0_1_n_n.lhsBatch by decide), dif_pos (show (0 : Fin S4000x384.rank) ∈ dot_S4000x384_S384x128_S4000x128_1_0_0_1_n_n.lhsNonContracting by decide)]
  rfl
theorem wide_lhs1 (i : S4000x128.Idx) (q : dot_S4000x384_S384x128_S4000x128_1_0_0_1_n_n.contr.Idx) : (dot_S4000x384_S384x128_S4000x128_1_0_0_1_n_n.lhsIdx i q 1).val = (q ⟨0, by decide⟩).val :=
  dot_S4000x384_S384x128_S4000x128_1_0_0_1_n_n.lhsIdx_val_of_single rfl i q
theorem wide_rhs0 (i : S4000x128.Idx) (q : dot_S4000x384_S384x128_S4000x128_1_0_0_1_n_n.contr.Idx) : (dot_S4000x384_S384x128_S4000x128_1_0_0_1_n_n.rhsIdx i q 0).val = (q ⟨0, by decide⟩).val :=
  dot_S4000x384_S384x128_S4000x128_1_0_0_1_n_n.rhsIdx_val_of_single rfl i q
theorem wide_rhs1 (i : S4000x128.Idx) (q : dot_S4000x384_S384x128_S4000x128_1_0_0_1_n_n.contr.Idx) : (dot_S4000x384_S384x128_S4000x128_1_0_0_1_n_n.rhsIdx i q 1).val = (i 1).val := by
  unfold DotDims.rhsIdx
  rw [dif_neg (show ¬(1 : Fin S384x128.rank) ∈ dot_S4000x384_S384x128_S4000x128_1_0_0_1_n_n.rhsBatch by decide), dif_pos (show (1 : Fin S384x128.rank) ∈ dot_S4000x384_S384x128_S4000x128_1_0_0_1_n_n.rhsNonContracting by decide)]
  rfl

/-- The product's sum over the contraction index, re-indexed by the shared coordinate: entry `(p, q)` is the sum over `k` of
    the left operand at `(p, k)` times the right operand at `(k, q)`. -/
theorem wide_sum (A : S4000x384.Idx → EReal) (B : S384x128.Idx → EReal) (p : Fin 4000) (q : Fin 128) :
    (∑ k : dot_S4000x384_S384x128_S4000x128_1_0_0_1_n_n.contr.Idx, A (dot_S4000x384_S384x128_S4000x128_1_0_0_1_n_n.lhsIdx (ix2 p q) k) * B (dot_S4000x384_S384x128_S4000x128_1_0_0_1_n_n.rhsIdx (ix2 p q) k))
      = ∑ k : Fin 384, A (ix2 p k) * B (ix2 k q) := by
  rw [← Equiv.sum_comp (contrEquiv1 dot_S4000x384_S384x128_S4000x128_1_0_0_1_n_n 384 rfl rfl).symm]
  refine Finset.sum_congr rfl fun k _ => ?_
  have hk := contrEquiv1_symm_val dot_S4000x384_S384x128_S4000x128_1_0_0_1_n_n 384 rfl rfl k
  have el : dot_S4000x384_S384x128_S4000x128_1_0_0_1_n_n.lhsIdx (ix2 p q) ((contrEquiv1 dot_S4000x384_S384x128_S4000x128_1_0_0_1_n_n 384 rfl rfl).symm k) = ix2 p k := funext fun a => Fin.ext (by
    match a with
    | ⟨0, _⟩ => exact wide_lhs0 _ _
    | ⟨1, _⟩ => exact (wide_lhs1 _ _).trans hk)
  have er : dot_S4000x384_S384x128_S4000x128_1_0_0_1_n_n.rhsIdx (ix2 p q) ((contrEquiv1 dot_S4000x384_S384x128_S4000x128_1_0_0_1_n_n 384 rfl rfl).symm k) = ix2 k q := funext fun a => Fin.ext (by
    match a with
    | ⟨0, _⟩ => exact (wide_rhs0 _ _).trans hk
    | ⟨1, _⟩ => exact wide_rhs1 _ _)
  rw [el, er]

/-- Coordinates of the operand indices of the 4000 × 128 by 128 × 128 product at output index `i` and contraction index `q`. -/
theorem square_lhs0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem square_lhs1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem square_rhs0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem square_rhs1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product's sum over the contraction index, re-indexed by the shared coordinate: entry `(p, q)` is the sum over `k` of
    the left operand at `(p, k)` times the right operand at `(k, q)`. -/
theorem square_sum (A : S4000x128.Idx → EReal) (B : S128x128.Idx → EReal) (p : Fin 4000) (q : Fin 128) :
    (∑ k : dot_S4000x128_S128x128_S4000x128_1_0_0_1_n_n.contr.Idx, A (dot_S4000x128_S128x128_S4000x128_1_0_0_1_n_n.lhsIdx (ix2 p q) k) * B (dot_S4000x128_S128x128_S4000x128_1_0_0_1_n_n.rhsIdx (ix2 p q) k))
      = ∑ k : Fin 128, A (ix2 p k) * B (ix2 k q) := by
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact square_lhs0 _ _
    | ⟨1, _⟩ => exact (square_lhs1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (square_rhs0 _ _).trans hk
    | ⟨1, _⟩ => exact square_rhs1 _ _)
  rw [el, er]

/-- The first layer's product into a zero accumulator. -/
theorem wide_apply (A : FVec Ideal S4000x384 .bf16) (B : FVec Ideal S384x128 .bf16) (p : Fin 4000) (q : Fin 128) :
    matmul dot_S4000x384_S384x128_S4000x128_1_0_0_1_n_n none A B (constant S4000x128 .f32 0x00000000#32) (ix2 p q)
      = ∑ k : Fin 384, A (ix2 p k) * B (ix2 k q) := by
  simp only [matmul]
  rw [Ideal.matmul_constant_zero_apply]
  exact wide_sum A B p q

/-- A later layer's product into a zero accumulator. -/
theorem square_apply (A : FVec Ideal S4000x128 .bf16) (B : FVec Ideal S128x128 .bf16) (p : Fin 4000) (q : Fin 128) :
    matmul dot_S4000x128_S128x128_S4000x128_1_0_0_1_n_n none A B (constant S4000x128 .f32 0x00000000#32) (ix2 p q)
      = ∑ k : Fin 128, A (ix2 p k) * B (ix2 k q) := by
  simp only [matmul]
  rw [Ideal.matmul_constant_zero_apply]
  exact square_sum A B p q

end Cert.KernelIdeal.Dots

end
-- ==== Proof.EdgeRow.lean ====
/-
  The mathematics of one edge's row, on the extended reals.

  Every edge has three rows of 128 entries — its sender's, its receiver's and its own. They are laid end to end (384
  entries), sent through three affine layers, the first two followed by a maximum with zero, and the 128 outputs are
  normalized: centred at their mean, divided by the square root of (the mean squared deviation plus a small constant),
  then scaled and shifted entry by entry. Both programs compute exactly this function of the edge's three rows and the
  shared weights; this module states it once, so that each side has only to show that its row IS this function.

  The constants stay as the bit patterns both programs print (zero, 128, and the small constant under the root): the
  same pattern on both sides is never evaluated.
-/
import Idealize.ShloMosaic.PureOps.Ideal

noncomputable section

namespace Cert.EdgeRow

open Idealize.ShloMosaic

/-- Three rows of 128 entries laid end to end. -/
def cat3 (s r e : Fin 128 → EReal) : Fin 384 → EReal := fun k =>
  if h : k.val < 128 then s ⟨k.val, h⟩
  else if h' : k.val < 256 then r ⟨k.val - 128, by omega⟩
  else e ⟨k.val - 256, by have := k.isLt; omega⟩

/-- An affine layer: a row times a matrix, plus a bias row. -/
def affine {K : Nat} (x : Fin K → EReal) (W : Fin K → Fin 128 → EReal) (b : Fin 128 → EReal) : Fin 128 → EReal :=
  fun j => (∑ k : Fin K, x k * W k j) + b j

/-- The entrywise maximum with zero. -/
def relu (v : Fin 128 → EReal) : Fin 128 → EReal := fun j => max (v j) (Ideal.ofBits .f32 0x00000000#32)

/-- The sum of a row's 128 entries divided by 128. -/
def mean (y : Fin 128 → EReal) : EReal := Ideal.div (∑ k : Fin 128, y k) (Ideal.ofBits .f32 0x43000000#32)

/-- The row centred at its mean, divided by the root of its mean squared deviation plus the small constant, scaled and shifted. -/
def norm (y γ β : Fin 128 → EReal) : Fin 128 → EReal := fun j =>
  (y j - mean y) * Ideal.rsqrt (mean (fun k => (y k - mean y) * (y k - mean y)) + Ideal.ofBits .f32 0x358637BD#32) * γ j + β j

/-- One edge's output row from its three input rows and the weights. -/
def out (s r e : Fin 128 → EReal) (W1 : Fin 384 → Fin 128 → EReal) (b1 : Fin 128 → EReal)
    (W2 : Fin 128 → Fin 128 → EReal) (b2 : Fin 128 → EReal) (W3 : Fin 128 → Fin 128 → EReal) (b3 γ β : Fin 128 → EReal) :
    Fin 128 → EReal :=
  norm (affine (relu (affine (relu (affine (cat3 s r e) W1 b1)) W2 b2)) W3 b3) γ β

end Cert.EdgeRow

end
-- ==== Proof.EdgeRowConcat.lean ====
/-
  Three arrays of rows of 128 entries, laid side by side, read at an entry: row `p` of the result is the three rows `p`
  laid end to end. Stated for any number of rows, so that the same fact serves a block of rows and the whole array.
-/
import proofs.«117457_j70944269796072_1_alg».proof.Proof.EdgeRow
import Idealize.ShloMosaic.Lib.Pipeline.Value
import Idealize.ShloMosaic.Lib.ValueIdx

noncomputable section

namespace Cert.EdgeRow

open Idealize.ShloMosaic Idealize.ShloMosaic.ValueIdx

theorem concat3_apply {n : ℕ} (x₁ x₂ x₃ : (⟨2, ![n, 128]⟩ : Shape).Idx → EReal)
    (h : Shape.Concatenates (List.map (·.1) ([⟨⟨2, ![n, 128]⟩, x₁⟩, ⟨⟨2, ![n, 128]⟩, x₂⟩, ⟨⟨2, ![n, 128]⟩, x₃⟩] : List ((s : Shape) × (s.Idx → EReal)))) ⟨2, ![n, 384]⟩ 1)
    (p : Fin n) (k : Fin 384) :
    concatenate ⟨2, ![n, 384]⟩ 1 [⟨⟨2, ![n, 128]⟩, x₁⟩, ⟨⟨2, ![n, 128]⟩, x₂⟩, ⟨⟨2, ![n, 128]⟩, x₃⟩] h (ix2 p k)
      = cat3 (fun j => x₁ (ix2 p j)) (fun j => x₂ (ix2 p j)) (fun j => x₃ (ix2 p j)) k := by
  unfold cat3
  by_cases h1 : k.val < 128
  · rw [dif_pos h1]
    refine concatenate_apply_piece 1 _ h (ix2 p k) 0 (by simp) ⟨2, ![n, 128]⟩ x₁ rfl rfl 0 rfl (ix2 p ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 256
    · rw [dif_pos h2]
      refine concatenate_apply_piece 1 _ h (ix2 p k) 1 (by simp) ⟨2, ![n, 128]⟩ x₂ rfl rfl 128 rfl (ix2 p ⟨k.val - 128, by omega⟩) (fun b hb => ?_) ?_
      · match b with
        | ⟨0, _⟩ => rfl
        | ⟨1, _⟩ => exact absurd rfl hb
      · show 128 + (k.val - 128) = k.val
        omega
    · rw [dif_neg h2]
      refine concatenate_apply_piece 1 _ h (ix2 p k) 2 (by simp) ⟨2, ![n, 128]⟩ x₃ rfl rfl 256 rfl (ix2 p ⟨k.val - 256, by have := k.isLt; omega⟩) (fun b hb => ?_) ?_
      · match b with
        | ⟨0, _⟩ => rfl
        | ⟨1, _⟩ => exact absurd rfl hb
      · show 256 + (k.val - 256) = k.val
        omega

end Cert.EdgeRow

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KernelRow.lean ====
/-
  The kernel's body, read at one entry of its block.

  The body works on a block of 4000 edges at a time. Row `p` of what it stores depends only on row `p` of the three
  input blocks (and on the weights, which every grid point sees whole): the three rows are laid end to end, go through
  the three layers — each product is a sum over the shared coordinate, the conversions to the narrower float format
  change nothing on the extended reals — and the 128 outputs are normalized. So row `p` of the stored block is the
  edge-row function of those three rows.
-/
import proofs.«117457_j70944269796072_1_alg».proof.Proof.Gen.KernelIdeal.Skeleton
import proofs.«117457_j70944269796072_1_alg».proof.Proof.KernelDots
import proofs.«117457_j70944269796072_1_alg».proof.Proof.EdgeRowConcat
import proofs.«117457_j70944269796072_1_alg».proof.Proof.LibBroadcast
import Idealize.ShloMosaic.Lib.ValueLayout

noncomputable section

namespace Cert.KernelIdeal.Row

open Cert.KernelIdeal Cert.KernelIdeal.Gen Idealize.ShloMosaic Idealize.ShloMosaic.ValueIdx Cert.EdgeRow Cert.Layout

/-- A lane sum of a block of rows, at row `p`: the sum of that row's 128 entries. -/
theorem rowSum_apply (Y : FVec Ideal S4000x128 .f32) (hφ : FKind.Formats .f32)
    (hacc : (0x00000000#32 : BitVec 32) = FKind.add.neutral .f32 hφ) (p : Fin 4000) :
    multiReduction .add [1] S4000 Y 0x00000000#32 reduces_S4000x128_S4000 hφ hacc (ix1 p) = ∑ k : Fin 128, Y (ix2 p k) :=
  (Ideal.multiReduction_add_single Y 0x00000000#32 reduces_S4000x128_S4000 hφ hacc (ix1 p)).trans
    (Finset.sum_congr rfl fun k _ => congrArg Y (funext fun a => Fin.ext (by
      match a with
      | ⟨0, _⟩ => rfl
      | ⟨1, _⟩ => rfl)))

/-- The three layers' output (before normalization) at entry `(p, q)` of the block. -/
theorem pay2_apply (v0 v2 v4 : FVec Ideal S4000x128 .f32) (v7 : FVec Ideal S384x128 .f32) (v10 : FVec Ideal S1x128 .f32) (v17 : FVec Ideal S128x128 .f32) (v20 : FVec Ideal S1x128 .f32) (v27 : FVec Ideal S128x128 .f32) (v30 : FVec Ideal S1x128 .f32) (p : Fin 4000) (q : Fin 128) :
    k0_pay2 (F := Ideal) v0 v2 v4 v7 v10 v17 v20 v27 v30 (ix2 p q)
      = affine (relu (affine (relu (affine (cat3 (fun j => v0 (ix2 p j)) (fun j => v2 (ix2 p j)) (fun j => v4 (ix2 p j)))
          (fun k j => v7 (ix2 k j)) (fun j => v10 (ix2 (0 : Fin 1) j)))) (fun k j => v17 (ix2 k j)) (fun j => v20 (ix2 (0 : Fin 1) j))))
        (fun k j => v27 (ix2 k j)) (fun j => v30 (ix2 (0 : Fin 1) j)) q := by
  unfold k0_pay2
  simp only [shapeCast_self, addf_apply, maximumf_apply, truncf_apply, broadcast_apply, Dots.wide_apply, Dots.square_apply,
    broadcastTo_1b_ab_apply, concat3_apply]
  rfl

/-- The row sums the body keeps beside the layers' output. -/
theorem pay3_apply (v0 v2 v4 : FVec Ideal S4000x128 .f32) (v7 : FVec Ideal S384x128 .f32) (v10 : FVec Ideal S1x128 .f32) (v17 : FVec Ideal S128x128 .f32) (v20 : FVec Ideal S1x128 .f32) (v27 : FVec Ideal S128x128 .f32) (v30 : FVec Ideal S1x128 .f32) (p : Fin 4000) :
    k0_pay3 (F := Ideal) v0 v2 v4 v7 v10 v17 v20 v27 v30 (ix1 p) = ∑ k : Fin 128, k0_pay2 (F := Ideal) v0 v2 v4 v7 v10 v17 v20 v27 v30 (ix2 p k) :=
  rowSum_apply _ (.inl rfl) rfl p

/-- The normalization at entry `(p, q)`, given that the row sums handed to it are the sums of the rows. -/
theorem pay1_apply (v33 : FVec Ideal S4000x128 .f32) (v34 : FVec Ideal S4000 .f32) (v52 v56 : FVec Ideal S1x128 .f32)
    (p : Fin 4000) (q : Fin 128) (hs : v34 (ix1 p) = ∑ k : Fin 128, v33 (ix2 p k)) :
    k0_pay1 (F := Ideal) v33 v34 v52 v56 (ix2 p q)
      = norm (fun j => v33 (ix2 p j)) (fun j => v52 (ix2 (0 : Fin 1) j)) (fun j => v56 (ix2 (0 : Fin 1) j)) q := by
  unfold k0_pay1
  simp only [shapeCast_self, addf_apply, mulf_apply, subf_apply, divf_apply, broadcast_apply, broadcastTo_1b_ab_apply,
    broadcastTo_a1_ab_apply, shapeCast_col_apply, rsqrt, hs]
  erw [rowSum_apply]
  simp only [mulf_apply, subf_apply, divf_apply, broadcast_apply, broadcastTo_a1_ab_apply, shapeCast_col_apply, hs]
  rfl

/-- What the body stores at entry `(p, q)` of its block: the edge-row function of row `p` of the three input blocks. -/
theorem body_apply (x0 x1 x2 : FVec Ideal S4000x128 .f32) (x3 : FVec Ideal S384x128 .f32) (x4 : FVec Ideal S1x128 .f32) (x5 : FVec Ideal S128x128 .f32) (x6 : FVec Ideal S1x128 .f32) (x7 : FVec Ideal S128x128 .f32) (x8 x9 x10 : FVec Ideal S1x128 .f32) (p : Fin 4000) (q : Fin 128) :
    k0_pay1 (F := Ideal) (k0_pay2 x0 x1 x2 x3 x4 x5 x6 x7 x8) (k0_pay3 x0 x1 x2 x3 x4 x5 x6 x7 x8) x9 x10 (ix2 p q)
      = out (fun j => x0 (ix2 p j)) (fun j => x1 (ix2 p j)) (fun j => x2 (ix2 p j))
          (fun k j => x3 (ix2 k j)) (fun j => x4 (ix2 (0 : Fin 1) j)) (fun k j => x5 (ix2 k j)) (fun j => x6 (ix2 (0 : Fin 1) j))
          (fun k j => x7 (ix2 k j)) (fun j => x8 (ix2 (0 : Fin 1) j)) (fun j => x9 (ix2 (0 : Fin 1) j)) (fun j => x10 (ix2 (0 : Fin 1) j)) q := by
  rw [pay1_apply _ _ _ _ p q (pay3_apply x0 x1 x2 x3 x4 x5 x6 x7 x8 p)]
  unfold out
  exact congrArg (fun y => norm y _ _ q) (funext fun j => pay2_apply x0 x1 x2 x3 x4 x5 x6 x7 x8 p j)

end Cert.KernelIdeal.Row

end
-- ==== Proof.KernelArray.lean ====
/-
  From blocks to the array: what the kernel's result array holds after the run.

  The grid has 100 points; point `t` works on edges `4000 t … 4000 t + 3999`: its three row blocks are those rows of the
  gathered sender rows, the gathered receiver rows and the edge rows, and every point sees the weights whole. It writes
  back the block of the same rows of the result. By the row reading of the body, entry `(p, q)` of that block is the
  edge-row function of edge `4000 t + p`; so every block is the restriction of ONE whole-array function `G`, and since
  the 100 blocks cover all 400000 rows, the result array ends holding `G`.
-/
import proofs.«117457_j70944269796072_1_alg».proof.Proof.Gen.KernelIdeal.Value
import proofs.«117457_j70944269796072_1_alg».proof.Proof.KernelRow
import Idealize.ShloMosaic.Lib.Pipeline.Value

noncomputable section

namespace Cert.KernelIdeal.Whole

open Cert.KernelIdeal Cert.KernelIdeal.Gen Idealize.ShloMosaic Idealize.ShloMosaic.TcCoe Idealize.SL.Sem Idealize.ShloMosaic.ValueIdx Cert.EdgeRow
open Idealize.ShloMosaic.Pipeline

variable (m : (ℓ : Loc nD τ sig) → Buf (Elt Ideal) ℓ) (ρ : Dev nD → PrngReg)

theorem hz : (![0, 0] : Fin 2 → Nat) = fun _ => 0 := funext fun a => by fin_cases a <;> rfl

/-- The result as one function of the arrays the region finds: row `e` is the edge-row function of rows `e` of the three
    edge-aligned arrays and the weights (the bias, scale and shift vectors as one-row matrices). -/
def G (gs gr ef : S400000x128.Idx → EReal) (W1 : S384x128.Idx → EReal) (b1 : S1x128.Idx → EReal) (W2 : S128x128.Idx → EReal)
    (b2 : S1x128.Idx → EReal) (W3 : S128x128.Idx → EReal) (b3 γ β : S1x128.Idx → EReal) : S400000x128.Idx → EReal :=
  fun i => out (fun j => gs (ix2 (⟨(i 0).val, idx2_lt0 i⟩ : Fin 400000) j)) (fun j => gr (ix2 (⟨(i 0).val, idx2_lt0 i⟩ : Fin 400000) j))
    (fun j => ef (ix2 (⟨(i 0).val, idx2_lt0 i⟩ : Fin 400000) j))
    (fun k j => W1 (ix2 k j)) (fun j => b1 (ix2 (0 : Fin 1) j)) (fun k j => W2 (ix2 k j)) (fun j => b2 (ix2 (0 : Fin 1) j))
    (fun k j => W3 (ix2 k j)) (fun j => b3 (ix2 (0 : Fin 1) j)) (fun j => γ (ix2 (0 : Fin 1) j)) (fun j => β (ix2 (0 : Fin 1) j))
    (⟨(i 1).val, idx2_lt1 i⟩ : Fin 128)

/-- The index maps, decided over the grid: the three row windows move with the output window along the rows, every
    other window stays at block 0, and the output's block at point `t` is block `t`. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- The edge that entry `(p, ·)` of point `t`'s output block belongs to. -/
def edgeOf (t : Fin cfg0.N) (p : Fin 4000) (q : Fin 128) : Fin 400000 :=
  ⟨(((cfg0.win 11).blk t).view.emb (ix2 p q) 0).val, idx2_lt0 _⟩

set_option maxHeartbeats 4000000 in
/-- What point `t` writes back is block `t` of `G` of the arrays as the region finds them. -/
theorem flushed_eq (c : Dev nD) (t : Fin cfg0.N) :
    (dats m 0 c).flushed 11 t = ((cfg0.win 11).blk t).view.read (Elt Ideal) (G (V m c main_v0) (V m c main_v1) (V m c main_arg2) (V m c main_arg5) (V m c main_v2) (V m c main_arg7) (V m c main_v3) (V m c main_arg9) (V m c main_v4) (V m c main_v5) (V m c main_v6)) := by
  rw [Value.flushed11]
  unfold out0_11
  rw [View.canon_unit_zero hz]
  simp only [View.ld_unit_zero (S := S4000x128) hz, View.ld_unit_zero (S := S384x128) hz, View.ld_unit_zero (S := S1x128) hz,
    View.ld_unit_zero (S := S128x128) hz]
  obtain ⟨e0a, e0b, e1a, e1b, e2a, e2b, e3a, e3b, e4a, e4b, e5a, e5b, e6a, e6b, e7a, e7b, e8a, e8b, e9a, e9b, e10a, e10b, eoa, eob⟩ := idx_facts t
  funext y
  obtain ⟨p, q, rfl⟩ : ∃ (p : Fin 4000) (q : Fin 128), y = ix2 p q := ⟨y 0, y 1, eq_ix2 y⟩
  refine (Row.body_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  have h0 : (fun j : Fin 128 => iblk m c 0 t (ix2 p j)) = fun j => V m c main_v0 (ix2 (edgeOf t p q) j) :=
    funext fun j => congrArg (V m c main_v0) (funext fun a => Fin.ext (by
      match a with
      | ⟨0, _⟩ => show win0_0.index t (0 : Fin 2) * 4000 + 1 * p.val = win0_11.index t (0 : Fin 2) * 4000 + 1 * p.val; omega
      | ⟨1, _⟩ => show win0_0.index t (1 : Fin 2) * 128 + 1 * j.val = j.val; omega))
  have h1 : (fun j : Fin 128 => iblk m c 1 t (ix2 p j)) = fun j => V m c main_v1 (ix2 (edgeOf t p q) j) :=
    funext fun j => congrArg (V m c main_v1) (funext fun a => Fin.ext (by
      match a with
      | ⟨0, _⟩ => show win0_1.index t (0 : Fin 2) * 4000 + 1 * p.val = win0_11.index t (0 : Fin 2) * 4000 + 1 * p.val; omega
      | ⟨1, _⟩ => show win0_1.index t (1 : Fin 2) * 128 + 1 * j.val = j.val; omega))
  have h2 : (fun j : Fin 128 => iblk m c 2 t (ix2 p j)) = fun j => V m c main_arg2 (ix2 (edgeOf t p q) j) :=
    funext fun j => congrArg (V m c main_arg2) (funext fun a => Fin.ext (by
      match a with
      | ⟨0, _⟩ => show win0_2.index t (0 : Fin 2) * 4000 + 1 * p.val = win0_11.index t (0 : Fin 2) * 4000 + 1 * p.val; omega
      | ⟨1, _⟩ => show win0_2.index t (1 : Fin 2) * 128 + 1 * j.val = j.val; omega))
  have h3 : (fun (k : Fin 384) (j : Fin 128) => iblk m c 3 t (ix2 k j)) = fun k j => V m c main_arg5 (ix2 k j) :=
    funext fun k => funext fun j => congrArg (V m c main_arg5) (funext fun a => Fin.ext (by
      match a with
      | ⟨0, _⟩ => show win0_3.index t (0 : Fin 2) * 384 + 1 * k.val = k.val; omega
      | ⟨1, _⟩ => show win0_3.index t (1 : Fin 2) * 128 + 1 * j.val = j.val; omega))
  have h4 : (fun j : Fin 128 => iblk m c 4 t (ix2 (0 : Fin 1) j)) = fun j => V m c main_v2 (ix2 (0 : Fin 1) j) :=
    funext fun j => congrArg (V m c main_v2) (funext fun a => Fin.ext (by
      match a with
      | ⟨0, _⟩ => show win0_4.index t (0 : Fin 2) * 1 + 1 * 0 = 0; omega
      | ⟨1, _⟩ => show win0_4.index t (1 : Fin 2) * 128 + 1 * j.val = j.val; omega))
  have h5 : (fun (k : Fin 128) (j : Fin 128) => iblk m c 5 t (ix2 k j)) = fun k j => V m c main_arg7 (ix2 k j) :=
    funext fun k => funext fun j => congrArg (V m c main_arg7) (funext fun a => Fin.ext (by
      match a with
      | ⟨0, _⟩ => show win0_5.index t (0 : Fin 2) * 128 + 1 * k.val = k.val; omega
      | ⟨1, _⟩ => show win0_5.index t (1 : Fin 2) * 128 + 1 * j.val = j.val; omega))
  have h6 : (fun j : Fin 128 => iblk m c 6 t (ix2 (0 : Fin 1) j)) = fun j => V m c main_v3 (ix2 (0 : Fin 1) j) :=
    funext fun j => congrArg (V m c main_v3) (funext fun a => Fin.ext (by
      match a with
      | ⟨0, _⟩ => show win0_6.index t (0 : Fin 2) * 1 + 1 * 0 = 0; omega
      | ⟨1, _⟩ => show win0_6.index t (1 : Fin 2) * 128 + 1 * j.val = j.val; omega))
  have h7 : (fun (k : Fin 128) (j : Fin 128) => iblk m c 7 t (ix2 k j)) = fun k j => V m c main_arg9 (ix2 k j) :=
    funext fun k => funext fun j => congrArg (V m c main_arg9) (funext fun a => Fin.ext (by
      match a with
      | ⟨0, _⟩ => show win0_7.index t (0 : Fin 2) * 128 + 1 * k.val = k.val; omega
      | ⟨1, _⟩ => show win0_7.index t (1 : Fin 2) * 128 + 1 * j.val = j.val; omega))
  have h8 : (fun j : Fin 128 => iblk m c 8 t (ix2 (0 : Fin 1) j)) = fun j => V m c main_v4 (ix2 (0 : Fin 1) j) :=
    funext fun j => congrArg (V m c main_v4) (funext fun a => Fin.ext (by
      match a with
      | ⟨0, _⟩ => show win0_8.index t (0 : Fin 2) * 1 + 1 * 0 = 0; omega
      | ⟨1, _⟩ => show win0_8.index t (1 : Fin 2) * 128 + 1 * j.val = j.val; omega))
  have h9 : (fun j : Fin 128 => iblk m c 9 t (ix2 (0 : Fin 1) j)) = fun j => V m c main_v5 (ix2 (0 : Fin 1) j) :=
    funext fun j => congrArg (V m c main_v5) (funext fun a => Fin.ext (by
      match a with
      | ⟨0, _⟩ => show win0_9.index t (0 : Fin 2) * 1 + 1 * 0 = 0; omega
      | ⟨1, _⟩ => show win0_9.index t (1 : Fin 2) * 128 + 1 * j.val = j.val; omega))
  have h10 : (fun j : Fin 128 => iblk m c 10 t (ix2 (0 : Fin 1) j)) = fun j => V m c main_v6 (ix2 (0 : Fin 1) j) :=
    funext fun j => congrArg (V m c main_v6) (funext fun a => Fin.ext (by
      match a with
      | ⟨0, _⟩ => show win0_10.index t (0 : Fin 2) * 1 + 1 * 0 = 0; omega
      | ⟨1, _⟩ => show win0_10.index t (1 : Fin 2) * 128 + 1 * j.val = j.val; omega))
  rw [h0, h1, h2, h3, h4, h5, h6, h7, h8, h9, h10]
  have hq : q = (⟨(((cfg0.win 11).blk t).view.emb (ix2 p q) 1).val, idx2_lt1 _⟩ : Fin 128) := Fin.ext (by
    show q.val = win0_11.index t (1 : Fin 2) * 128 + 1 * q.val; omega)
  exact congrArg _ hq

/-- An index of the array is in point `t`'s block iff each coordinate is in the block's range on its axis. -/
theorem mem_blk (t : Fin cfg0.N) (i : S400000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v7).slice (win0_11.rect t)).set ↔ _
  rw [View.set_slice_whole, Rect.mem_set_unit]
  exact Iff.rfl

/-- Every row belongs to some point's block: row `r` to point `r / 4000`. -/
theorem cover (i : S400000x128.Idx) : ∃ t : Fin cfg0.N, (cfg0.win 11).flush t = true ∧ i ∈ ((cfg0.win 11).blk t).view.set := by
  have hi0 : (i 0).val < 400000 := idx2_lt0 i
  have hi1 : (i 1).val < 128 := idx2_lt1 i
  refine ⟨⟨(i 0).val / 4000, by show (i 0).val / 4000 < 100; omega⟩, flush0_11 _, ?_⟩
  obtain ⟨e0a, e0b, e1a, e1b, e2a, e2b, e3a, e3b, e4a, e4b, e5a, e5b, e6a, e6b, e7a, e7b, e8a, e8b, e9a, e9b, e10a, e10b, eoa, eob⟩ := idx_facts ⟨(i 0).val / 4000, by show (i 0).val / 4000 < 100; omega⟩
  rw [mem_blk]
  intro a
  match a with
  | ⟨0, _⟩ =>
    show win0_11.index _ (0 : Fin 2) * 4000 ≤ (i 0).val ∧ (i 0).val < win0_11.index _ (0 : Fin 2) * 4000 + 4000
    rw [eoa]; show (i 0).val / 4000 * 4000 ≤ (i 0).val ∧ (i 0).val < (i 0).val / 4000 * 4000 + 4000; omega
  | ⟨1, _⟩ =>
    show win0_11.index _ (1 : Fin 2) * 128 ≤ (i 1).val ∧ (i 1).val < win0_11.index _ (1 : Fin 2) * 128 + 128
    rw [eob]; omega

/-- The result array after the run. -/
theorem final (c : Dev nD) : (dats m 0 c).arrAt 11 cfg0.N = G (V m c main_v0) (V m c main_v1) (V m c main_arg2) (V m c main_arg5) (V m c main_v2) (V m c main_arg7) (V m c main_v3) (V m c main_arg9) (V m c main_v4) (V m c main_v5) (V m c main_v6) :=
  (dats m 0 c).arrAt_eq_of_cover 11 _ (fun t _ => flushed_eq m c t) cover

end Cert.KernelIdeal.Whole

end
-- ==== Proof.KernelEntry.lean ====
/-
  The arrays the kernel's windows find when the region is entered.

  Before the region the program gathers the sender rows and the receiver rows (the same row gather with filling as in the
  reference) and re-lays each of the five 128-entry vectors — the three biases, the scale and the shift — as a one-row
  matrix. So two of the edge-aligned window arrays are the gathered rows of the argument tables, and the five small
  window arrays are the argument vectors as rows.
-/
import proofs.«117457_j70944269796072_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- Row gather with filling: an index below zero counts from the end (50000 is added); row `t` of the result is row
    `i t` of `x` when that index lies in `0 … 49999`, and the not-a-number pattern in every column otherwise. -/
def takeRows (x : (⟨S50000x128, .f32⟩ : BufTy).Contents (Elt F)) (i : (⟨S400000, .i32⟩ : BufTy).Contents (Elt F)) : (⟨S400000x128, .f32⟩ : BufTy).Contents (Elt F) :=
  let i5 := broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 50000#32))) i)
  select
    (broadcastInDim S400000x128 ![0] bcast_S400000_S400000x128_0
      (Host.reduce IntOp.andi
        (andi (cmpi .sge i5 (broadcastInDim S400000x1 ![] bcast_S_S400000x1 (constantI S_ 32 0#32)))
          (cmpi .sle i5 (broadcastInDim S400000x1 ![0, 1] bcast_S1x1_S400000x1_0_1
            (broadcastInDim S1x1 ![1] bcast_S1_S1x1_1 (constantI S1 32 49999#32)))))
        (constantI S_ 1 1#1) reducesTo_S400000x1_S400000_d1 h_S_))
    (Host.gather gather_S50000x128_S400000x1_S400000x128_1_0_n_n_0_1_1128 x i5)
    (broadcastInDim S400000x128 ![] bcast_S_S400000x128 (constant (F := F) S_ .f32 0x7FC00000#32))

variable (m : (ℓ : Loc nD τ sig) → Buf (Elt F) ℓ)

attribute [local irreducible] Host.reduce Host.gather in
set_option maxRecDepth 16384 in
set_option maxHeartbeats 1600000 in
/-- The first window's array: the gathered sender rows. -/
theorem V_senders (c : Dev nD) :
    (V m c main_v0 : (⟨S400000x128, .f32⟩ : BufTy).Contents (Elt F)) = takeRows (m ((c : Thread nD τ).loc main_arg0)) (m ((c : Thread nD τ).loc main_arg3)) := by
  dsimp only [V]
  simp only [hostOps0, hostOps0_1, hostOps0_2, List.flatten_cons, List.flatten_nil, List.append_nil, List.cons_append, List.nil_append]
  after_results_simp
  rfl

attribute [local irreducible] Host.reduce Host.gather in
set_option maxRecDepth 16384 in
set_option maxHeartbeats 1600000 in
/-- The second window's array: the gathered receiver rows. -/
theorem V_receivers (c : Dev nD) :
    (V m c main_v1 : (⟨S400000x128, .f32⟩ : BufTy).Contents (Elt F)) = takeRows (m ((c : Thread nD τ).loc main_arg1)) (m ((c : Thread nD τ).loc main_arg4)) := by
  dsimp only [V]
  simp only [hostOps0, hostOps0_1, hostOps0_2, List.flatten_cons, List.flatten_nil, List.append_nil, List.cons_append, List.nil_append]
  after_results_simp
  rfl

set_option maxRecDepth 16384 in
set_option maxHeartbeats 1600000 in
/-- A small window's array: the argument vector as a one-row matrix. -/
theorem V_main_v2 (c : Dev nD) :
    (V m c main_v2 : (⟨S1x128, .f32⟩ : BufTy).Contents (Elt F)) = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results_simp
  rfl

set_option maxRecDepth 16384 in
set_option maxHeartbeats 1600000 in
/-- A small window's array: the argument vector as a one-row matrix. -/
theorem V_main_v3 (c : Dev nD) :
    (V m c main_v3 : (⟨S1x128, .f32⟩ : BufTy).Contents (Elt F)) = shapeCast S1x128 (m ((c : Thread nD τ).loc main_arg8)) shapeCasts_S128_S1x128 := by
  dsimp only [V]
  simp only [hostOps0, hostOps0_1, hostOps0_2, List.flatten_cons, List.flatten_nil, List.append_nil, List.cons_append, List.nil_append]
  after_results_simp
  rfl

set_option maxRecDepth 16384 in
set_option maxHeartbeats 1600000 in
/-- A small window's array: the argument vector as a one-row matrix. -/
theorem V_main_v4 (c : Dev nD) :
    (V m c main_v4 : (⟨S1x128, .f32⟩ : BufTy).Contents (Elt F)) = shapeCast S1x128 (m ((c : Thread nD τ).loc main_arg10)) shapeCasts_S128_S1x128 := by
  dsimp only [V]
  simp only [hostOps0, hostOps0_1, hostOps0_2, List.flatten_cons, List.flatten_nil, List.append_nil, List.cons_append, List.nil_append]
  after_results_simp
  rfl

set_option maxRecDepth 16384 in
set_option maxHeartbeats 1600000 in
/-- A small window's array: the argument vector as a one-row matrix. -/
theorem V_main_v5 (c : Dev nD) :
    (V m c main_v5 : (⟨S1x128, .f32⟩ : BufTy).Contents (Elt F)) = shapeCast S1x128 (m ((c : Thread nD τ).loc main_arg11)) shapeCasts_S128_S1x128 := by
  dsimp only [V]
  simp only [hostOps0, hostOps0_1, hostOps0_2, List.flatten_cons, List.flatten_nil, List.append_nil, List.cons_append, List.nil_append]
  after_results_simp
  rfl

set_option maxRecDepth 16384 in
set_option maxHeartbeats 1600000 in
/-- A small window's array: the argument vector as a one-row matrix. -/
theorem V_main_v6 (c : Dev nD) :
    (V m c main_v6 : (⟨S1x128, .f32⟩ : BufTy).Contents (Elt F)) = shapeCast S1x128 (m ((c : Thread nD τ).loc main_arg12)) shapeCasts_S128_S1x128 := by
  dsimp only [V]
  simp only [hostOps0, hostOps0_1, hostOps0_2, List.flatten_cons, List.flatten_nil, List.append_nil, List.cons_append, List.nil_append]
  after_results_simp
  rfl

end Cert.KernelIdeal.Entry

end
-- ==== Proof.KernelRun.lean ====
/-
  The kernel program's run, with its result named: every execution ends with the result array at the whole-array function
  `G` of the gathered sender rows, the gathered receiver rows, the edge rows and the weights — all of them functions of the
  argument arrays at launch — and with the argument arrays unchanged.
-/
import proofs.«117457_j70944269796072_1_alg».proof.Proof.KernelArray
import proofs.«117457_j70944269796072_1_alg».proof.Proof.KernelEntry

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array in terms of the argument arrays at launch. -/
theorem final_args (c : Dev nD) :
    (dats m 0 c).arrAt 11 cfg0.N = G (Entry.takeRows (m ((c : Thread nD τ).loc main_arg0)) (m ((c : Thread nD τ).loc main_arg3))) (Entry.takeRows (m ((c : Thread nD τ).loc main_arg1)) (m ((c : Thread nD τ).loc main_arg4))) (m ((c : Thread nD τ).loc main_arg2)) (m ((c : Thread nD τ).loc main_arg5))
        (shapeCast S1x128 (m ((c : Thread nD τ).loc main_arg6)) shapeCasts_S128_S1x128) (m ((c : Thread nD τ).loc main_arg7)) (shapeCast S1x128 (m ((c : Thread nD τ).loc main_arg8)) shapeCasts_S128_S1x128) (m ((c : Thread nD τ).loc main_arg9))
        (shapeCast S1x128 (m ((c : Thread nD τ).loc main_arg10)) shapeCasts_S128_S1x128) (shapeCast S1x128 (m ((c : Thread nD τ).loc main_arg11)) shapeCasts_S128_S1x128) (shapeCast S1x128 (m ((c : Thread nD τ).loc main_arg12)) shapeCasts_S128_S1x128) := by
  rw [final, Entry.V_senders, Entry.V_receivers, Entry.V_main_v2, Entry.V_main_v3, Entry.V_main_v4, Entry.V_main_v5, Entry.V_main_v6,
    V_main_arg2, V_main_arg5, V_main_arg7, V_main_arg9]

theorem run : θ_run defs (onTc (τ := τ) (main (F := Ideal))) ⟨m, fun _ => 0, ρ⟩ fun r => ∀ c : Dev nD,
      r.2.mem ((c : Thread nD τ).loc main_v7) = G (Entry.takeRows (m ((c : Thread nD τ).loc main_arg0)) (m ((c : Thread nD τ).loc main_arg3))) (Entry.takeRows (m ((c : Thread nD τ).loc main_arg1)) (m ((c : Thread nD τ).loc main_arg4))) (m ((c : Thread nD τ).loc main_arg2)) (m ((c : Thread nD τ).loc main_arg5))
        (shapeCast S1x128 (m ((c : Thread nD τ).loc main_arg6)) shapeCasts_S128_S1x128) (m ((c : Thread nD τ).loc main_arg7)) (shapeCast S1x128 (m ((c : Thread nD τ).loc main_arg8)) shapeCasts_S128_S1x128) (m ((c : Thread nD τ).loc main_arg9))
        (shapeCast S1x128 (m ((c : Thread nD τ).loc main_arg10)) shapeCasts_S128_S1x128) (shapeCast S1x128 (m ((c : Thread nD τ).loc main_arg11)) shapeCasts_S128_S1x128) (shapeCast S1x128 (m ((c : Thread nD τ).loc main_arg12)) shapeCasts_S128_S1x128)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final_args m c), (h c).2⟩) (Value.run_blocks m ρ)

end Cert.KernelIdeal.Whole

end
-- ==== Proof.RefRun.lean ====
/-
  The reference program's run, read back as one pure term of its arguments.

  The reference gathers a sender row and a receiver row for every edge (two calls of the row gather `take`, whose
  out-of-range rows are filled with the not-a-number pattern), lays the two gathered rows and the edge's own row end to
  end (384 entries), and sends every such row through three affine layers — the first two followed by a maximum with
  zero — and a normalization of the 128 outputs: subtract their mean, divide by the square root of the mean squared
  deviation plus a small constant, scale and shift column by column.

  Here: the program's operations as a list (the two gathers' and the two maxima's operations written out at their call
  sites), the fact that the program IS that list run in order, and the resulting contents of the result buffer as the
  composition `refOut` of a few named stages, each of which is a whole-array function.
-/
import proofs.«117457_j70944269796072_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Row gather with filling: an index below zero counts from the end (50000 is added); row `t` of the result is row
    `i t` of `x` when that index lies in `0 … 49999`, and the not-a-number pattern in every column otherwise. -/
def takeRows (x : (⟨S50000x128, .f32⟩ : BufTy).Contents (Elt F)) (i : (⟨S400000, .i32⟩ : BufTy).Contents (Elt F)) : (⟨S400000x128, .f32⟩ : BufTy).Contents (Elt F) :=
  let i5 := broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 50000#32))) i)
  select
    (broadcastInDim S400000x128 ![0] bcast_S400000_S400000x128_0
      (Host.reduce IntOp.andi
        (andi (cmpi .sge i5 (broadcastInDim S400000x1 ![] bcast_S_S400000x1 (constantI S_ 32 0#32)))
          (cmpi .sle i5 (broadcastInDim S400000x1 ![0, 1] bcast_S1x1_S400000x1_0_1
            (broadcastInDim S1x1 ![1] bcast_S1_S1x1_1 (constantI S1 32 49999#32)))))
        (constantI S_ 1 1#1) reducesTo_S400000x1_S400000_d1 h_S_))
    (Host.gather gather_S50000x128_S400000x1_S400000x128_1_0_n_n_0_1_1128 x i5)
    (broadcastInDim S400000x128 ![] bcast_S_S400000x128 (constant (F := F) S_ .f32 0x7FC00000#32))

/-- The three rows of every edge laid end to end. -/
def catRows (s r e : (⟨S400000x128, .f32⟩ : BufTy).Contents (Elt F)) : (⟨S400000x384, .f32⟩ : BufTy).Contents (Elt F) :=
  concatenate S400000x384 1 [⟨S400000x128, s⟩, ⟨S400000x128, r⟩, ⟨S400000x128, e⟩] concatenates_S400000x128_S400000x128_S400000x128_S400000x384_d1

/-- A vector of 128 entries repeated in every row. -/
def rowBias (b : (⟨S128, .f32⟩ : BufTy).Contents (Elt F)) : (⟨S400000x128, .f32⟩ : BufTy).Contents (Elt F) :=
  broadcastInDim S400000x128 ![0, 1] bcast_S1x128_S400000x128_0_1 (broadcastInDim S1x128 ![1] bcast_S128_S1x128_1 b)

/-- The entrywise maximum with zero. -/
def reluH (v : (⟨S400000x128, .f32⟩ : BufTy).Contents (Elt F)) : (⟨S400000x128, .f32⟩ : BufTy).Contents (Elt F) :=
  maximumf v (broadcastInDim S400000x128 ![] bcast_S_S400000x128 (constant (F := F) S_ .f32 0x00000000#32))

/-- The first affine layer: rows of 384 entries times a 384 × 128 matrix, plus a bias row. -/
def affine1 (x : (⟨S400000x384, .f32⟩ : BufTy).Contents (Elt F)) (W : (⟨S384x128, .f32⟩ : BufTy).Contents (Elt F)) (b : (⟨S128, .f32⟩ : BufTy).Contents (Elt F)) : (⟨S400000x128, .f32⟩ : BufTy).Contents (Elt F) :=
  addf (Host.dotGeneral (F := F) dot_S400000x384_S384x128_S400000x128_1_0_0_1_n_n none x W) (rowBias b)

/-- A later affine layer: rows of 128 entries times a 128 × 128 matrix, plus a bias row. -/
def affine (h : (⟨S400000x128, .f32⟩ : BufTy).Contents (Elt F)) (W : (⟨S128x128, .f32⟩ : BufTy).Contents (Elt F)) (b : (⟨S128, .f32⟩ : BufTy).Contents (Elt F)) : (⟨S400000x128, .f32⟩ : BufTy).Contents (Elt F) :=
  addf (Host.dotGeneral (F := F) dot_S400000x128_S128x128_S400000x128_1_0_0_1_n_n none h W) (rowBias b)

/-- Every row's sum divided by 128, as a column. -/
def meanCol (y : (⟨S400000x128, .f32⟩ : BufTy).Contents (Elt F)) : (⟨S400000x1, .f32⟩ : BufTy).Contents (Elt F) :=
  Host.divf (F := F)
    (broadcastInDim S400000x1 ![0] bcast_S400000_S400000x1_0
      (Host.reduceAdd (F := F) y (constant (F := F) S_ .f32 0x00000000#32) reducesTo_S400000x128_S400000_d1 h_S_))
    (broadcastInDim S400000x1 ![] bcast_S_S400000x1 (constant (F := F) S_ .f32 0x43000000#32))

/-- A column repeated along every row. -/
def spread (v : (⟨S400000x1, .f32⟩ : BufTy).Contents (Elt F)) : (⟨S400000x128, .f32⟩ : BufTy).Contents (Elt F) :=
  broadcastInDim S400000x128 ![0, 1] bcast_S400000x1_S400000x128_0_1 v

/-- Every row centred at its mean and divided by the square root of (its mean squared deviation plus the small constant). -/
def normRows (y : (⟨S400000x128, .f32⟩ : BufTy).Contents (Elt F)) : (⟨S400000x128, .f32⟩ : BufTy).Contents (Elt F) :=
  mulf (subf y (spread (meanCol y)))
    (spread (Host.rsqrt (F := F)
      (addf (meanCol (mulf (subf y (spread (meanCol y))) (subf y (spread (meanCol y)))))
        (broadcastInDim S400000x1 ![] bcast_S_S400000x1 (constant (F := F) S_ .f32 0x358637BD#32)))))

/-- The reference's result as a function of its thirteen arguments. -/
def refOut (a0 a1 : (⟨S50000x128, .f32⟩ : BufTy).Contents (Elt F)) (a2 : (⟨S400000x128, .f32⟩ : BufTy).Contents (Elt F)) (a3 a4 : (⟨S400000, .i32⟩ : BufTy).Contents (Elt F))
    (a5 : (⟨S384x128, .f32⟩ : BufTy).Contents (Elt F)) (a6 : (⟨S128, .f32⟩ : BufTy).Contents (Elt F)) (a7 : (⟨S128x128, .f32⟩ : BufTy).Contents (Elt F)) (a8 : (⟨S128, .f32⟩ : BufTy).Contents (Elt F))
    (a9 : (⟨S128x128, .f32⟩ : BufTy).Contents (Elt F)) (a10 a11 a12 : (⟨S128, .f32⟩ : BufTy).Contents (Elt F)) : (⟨S400000x128, .f32⟩ : BufTy).Contents (Elt F) :=
  addf (mulf (normRows (affine (reluH (affine (reluH (affine1 (catRows (takeRows a0 a3) (takeRows a1 a4) a2) a5 a6)) a7 a8)) a9 a10))
    (rowBias a11)) (rowBias a12)

/-! ## The program as a list of operations -/

/-- The operations in program order: each gather's twenty-three, the concatenation, then layer by layer. -/
abbrev ops : List (HloOp τ sig (Elt F)) :=
  [
    TRef.nullary main_call0.c (constantI S_ 32 0#32),
    TRef.unary main_call0.c main_call0.v0 (broadcastInDim S400000 ![] bcast_S_S400000),
    TRef.binary (.of main_arg3) main_call0.v0 main_call0.v1 (cmpi .slt),
    TRef.nullary main_call0.c_0 (constantI S_ 32 50000#32),
    TRef.unary main_call0.c_0 main_call0.v2 (broadcastInDim S400000 ![] bcast_S_S400000),
    TRef.binary (.of main_arg3) main_call0.v2 main_call0.v3 addi,
    TRef.ternary main_call0.v1 main_call0.v3 (.of main_arg3) main_call0.call0.v0 select,
    TRef.unary main_call0.call0.v0 main_call0.v5 (broadcastInDim S400000x1 ![0] bcast_S400000_S400000x1_0),
    TRef.nullary main_call0.c_1 (constantI S1 32 49999#32),
    TRef.nullary main_call0.c_2 (constantI S_ 32 0#32),
    TRef.unary main_call0.c_2 main_call0.v6 (broadcastInDim S400000x1 ![] bcast_S_S400000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S400000x1 ![0, 1] bcast_S1x1_S400000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S400000x1_S400000_d1 h_S_),
    TRef.binary (.of main_arg0) main_call0.v5 main_call0.v13 (fun x i => Host.gather gather_S50000x128_S400000x1_S400000x128_1_0_n_n_0_1_1128 x i),
    TRef.unary main_call0.v12 main_call0.v14 (broadcastInDim S400000x128 ![0] bcast_S400000_S400000x128_0),
    TRef.nullary main_call0.cst (constant S_ .f32 0x7FC00000#32),
    TRef.unary main_call0.cst main_call0.v15 (broadcastInDim S400000x128 ![] bcast_S_S400000x128),
    TRef.ternary main_call0.v14 main_call0.v13 main_call0.v15 main_call0.v16 select,
    TRef.nullary main_call1.c (constantI S_ 32 0#32),
    TRef.unary main_call1.c main_call1.v0 (broadcastInDim S400000 ![] bcast_S_S400000),
    TRef.binary (.of main_arg4) main_call1.v0 main_call1.v1 (cmpi .slt),
    TRef.nullary main_call1.c_0 (constantI S_ 32 50000#32),
    TRef.unary main_call1.c_0 main_call1.v2 (broadcastInDim S400000 ![] bcast_S_S400000),
    TRef.binary (.of main_arg4) main_call1.v2 main_call1.v3 addi,
    TRef.ternary main_call1.v1 main_call1.v3 (.of main_arg4) main_call1.call0.v0 select,
    TRef.unary main_call1.call0.v0 main_call1.v5 (broadcastInDim S400000x1 ![0] bcast_S400000_S400000x1_0),
    TRef.nullary main_call1.c_1 (constantI S1 32 49999#32),
    TRef.nullary main_call1.c_2 (constantI S_ 32 0#32),
    TRef.unary main_call1.c_2 main_call1.v6 (broadcastInDim S400000x1 ![] bcast_S_S400000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S400000x1 ![0, 1] bcast_S1x1_S400000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S400000x1_S400000_d1 h_S_),
    TRef.binary (.of main_arg1) main_call1.v5 main_call1.v13 (fun x i => Host.gather gather_S50000x128_S400000x1_S400000x128_1_0_n_n_0_1_1128 x i),
    TRef.unary main_call1.v12 main_call1.v14 (broadcastInDim S400000x128 ![0] bcast_S400000_S400000x128_0),
    TRef.nullary main_call1.cst (constant S_ .f32 0x7FC00000#32),
    TRef.unary main_call1.cst main_call1.v15 (broadcastInDim S400000x128 ![] bcast_S_S400000x128),
    TRef.ternary main_call1.v14 main_call1.v13 main_call1.v15 main_call1.v16 select,
    nary ![main_v0, main_v1, main_arg2] main_v2 (fun u => concatenate S400000x384 1 [⟨S400000x128, u 0⟩, ⟨S400000x128, u 1⟩, ⟨S400000x128, u 2⟩] concatenates_S400000x128_S400000x128_S400000x128_S400000x384_d1),
    binary main_v2 main_arg5 main_v3 (fun l r => Host.dotGeneral dot_S400000x384_S384x128_S400000x128_1_0_0_1_n_n none l r),
    unary main_arg6 main_v4 (broadcastInDim S1x128 ![1] bcast_S128_S1x128_1),
    unary main_v4 main_v5 (broadcastInDim S400000x128 ![0, 1] bcast_S1x128_S400000x128_0_1),
    binary main_v3 main_v5 main_v6 addf,
    TRef.nullary main_call2.cst (constant S_ .f32 0x00000000#32),
    TRef.unary main_call2.cst main_call2.v0 (broadcastInDim S400000x128 ![] bcast_S_S400000x128),
    TRef.binary (.of main_v6) main_call2.v0 main_call2.v1 maximumf,
    binary main_v7 main_arg7 main_v8 (fun l r => Host.dotGeneral dot_S400000x128_S128x128_S400000x128_1_0_0_1_n_n none l r),
    unary main_arg8 main_v9 (broadcastInDim S1x128 ![1] bcast_S128_S1x128_1),
    unary main_v9 main_v10 (broadcastInDim S400000x128 ![0, 1] bcast_S1x128_S400000x128_0_1),
    binary main_v8 main_v10 main_v11 addf,
    TRef.nullary main_call3.cst (constant S_ .f32 0x00000000#32),
    TRef.unary main_call3.cst main_call3.v0 (broadcastInDim S400000x128 ![] bcast_S_S400000x128),
    TRef.binary (.of main_v11) main_call3.v0 main_call3.v1 maximumf,
    binary main_v12 main_arg9 main_v13 (fun l r => Host.dotGeneral dot_S400000x128_S128x128_S400000x128_1_0_0_1_n_n none l r),
    unary main_arg10 main_v14 (broadcastInDim S1x128 ![1] bcast_S128_S1x128_1),
    unary main_v14 main_v15 (broadcastInDim S400000x128 ![0, 1] bcast_S1x128_S400000x128_0_1),
    binary main_v13 main_v15 main_v16 addf,
    nullary main_cst (constant S_ .f32 0x00000000#32),
    binary main_v16 main_cst main_v17 (fun x v => Host.reduceAdd x v reducesTo_S400000x128_S400000_d1 h_S_),
    unary main_v17 main_v18 (broadcastInDim S400000x1 ![0] bcast_S400000_S400000x1_0),
    nullary main_cst_0 (constant S_ .f32 0x43000000#32),
    unary main_cst_0 main_v19 (broadcastInDim S400000x1 ![] bcast_S_S400000x1),
    binary main_v18 main_v19 main_v20 Host.divf,
    unary main_v20 main_v21 (broadcastInDim S400000x128 ![0, 1] bcast_S400000x1_S400000x128_0_1),
    binary main_v16 main_v21 main_v22 subf,
    binary main_v22 main_v22 main_v23 mulf,
    nullary main_cst_1 (constant S_ .f32 0x00000000#32),
    binary main_v23 main_cst_1 main_v24 (fun x v => Host.reduceAdd x v reducesTo_S400000x128_S400000_d1 h_S_),
    unary main_v24 main_v25 (broadcastInDim S400000x1 ![0] bcast_S400000_S400000x1_0),
    nullary main_cst_2 (constant S_ .f32 0x43000000#32),
    unary main_cst_2 main_v26 (broadcastInDim S400000x1 ![] bcast_S_S400000x1),
    binary main_v25 main_v26 main_v27 Host.divf,
    unary main_v20 main_v28 (broadcastInDim S400000x128 ![0, 1] bcast_S400000x1_S400000x128_0_1),
    binary main_v16 main_v28 main_v29 subf,
    nullary main_cst_3 (constant S_ .f32 0x358637BD#32),
    unary main_cst_3 main_v30 (broadcastInDim S400000x1 ![] bcast_S_S400000x1),
    binary main_v27 main_v30 main_v31 addf,
    unary main_v31 main_v32 Host.rsqrt,
    unary main_v32 main_v33 (broadcastInDim S400000x128 ![0, 1] bcast_S400000x1_S400000x128_0_1),
    binary main_v29 main_v33 main_v34 mulf,
    unary main_arg11 main_v35 (broadcastInDim S1x128 ![1] bcast_S128_S1x128_1),
    unary main_v35 main_v36 (broadcastInDim S400000x128 ![0, 1] bcast_S1x128_S400000x128_0_1),
    binary main_v34 main_v36 main_v37 mulf,
    unary main_arg12 main_v38 (broadcastInDim S1x128 ![1] bcast_S128_S1x128_1),
    unary main_v38 main_v39 (broadcastInDim S400000x128 ![0, 1] bcast_S1x128_S400000x128_0_1),
    binary main_v37 main_v39 main_v40 addf ]

set_option maxRecDepth 16384 in
/-- The program is that list run in order: the called functions' bodies unfolded at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every execution ends with every buffer at the list's fold over the contents at launch. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefKept.lean ====
/-
  The reference's argument arrays after the run are as they were: no operation of the list writes an argument's buffer,
  so the fold over the list leaves each of them at its contents at launch.
-/
import proofs.«117457_j70944269796072_1_alg».proof.Proof.RefRun

noncomputable section

namespace Cert.ReferenceIdeal.HostRun

open Cert.ReferenceIdeal Cert.ReferenceIdeal.Gen Idealize.ShloMosaic Idealize.ShloMosaic.TcCoe Idealize.SL.Sem Idealize.ShloMosaic.StableHlo

section Three

variable {nD : Nat} {τ : Topo} {sig : RefSig} {Val : EltTy → Type} {x a b y : Ref sig .tc}

/-- An operation with a literal family of THREE operands (the concatenation of three arrays) leaves its result buffer at
    its function of the three operands' contents, each read at its own buffer. -/
theorem concat3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Three

variable {F : FTy → Type} [FloatOps F]

set_option maxRecDepth 16384 in
set_option maxHeartbeats 1600000 in
theorem main_arg0_kept (V : Valuation τ sig (Elt F)) : after ops V (main_arg0 : DevRef τ sig) = V (main_arg0 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg1_kept (V : Valuation τ sig (Elt F)) : after ops V (main_arg1 : DevRef τ sig) = V (main_arg1 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg2_kept (V : Valuation τ sig (Elt F)) : after ops V (main_arg2 : DevRef τ sig) = V (main_arg2 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg3_kept (V : Valuation τ sig (Elt F)) : after ops V (main_arg3 : DevRef τ sig) = V (main_arg3 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg4_kept (V : Valuation τ sig (Elt F)) : after ops V (main_arg4 : DevRef τ sig) = V (main_arg4 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg5_kept (V : Valuation τ sig (Elt F)) : after ops V (main_arg5 : DevRef τ sig) = V (main_arg5 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg6_kept (V : Valuation τ sig (Elt F)) : after ops V (main_arg6 : DevRef τ sig) = V (main_arg6 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg7_kept (V : Valuation τ sig (Elt F)) : after ops V (main_arg7 : DevRef τ sig) = V (main_arg7 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg8_kept (V : Valuation τ sig (Elt F)) : after ops V (main_arg8 : DevRef τ sig) = V (main_arg8 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg9_kept (V : Valuation τ sig (Elt F)) : after ops V (main_arg9 : DevRef τ sig) = V (main_arg9 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg10_kept (V : Valuation τ sig (Elt F)) : after ops V (main_arg10 : DevRef τ sig) = V (main_arg10 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg11_kept (V : Valuation τ sig (Elt F)) : after ops V (main_arg11 : DevRef τ sig) = V (main_arg11 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem main_arg12_kept (V : Valuation τ sig (Elt F)) : after ops V (main_arg12 : DevRef τ sig) = V (main_arg12 : DevRef τ sig) := by
  simp (disch := decide) only [after_cons, after_nil, nullary_result', unary_result', binary_result', ternary_result', concat3_result',
    nullary_result_ne', unary_result_ne', binary_result_ne', ternary_result_ne', nary_result_ne']

end Cert.ReferenceIdeal.HostRun

end
-- ==== Proof.RefOut.lean ====
/-
  What the reference's result buffer holds after the run: `refOut` of the argument arrays. It is read off the fold over
  the operation list: an operation's result at its own buffer is its function of its operands' contents, and every other
  buffer is untouched by it. The list is read in two parts — up to the third layer's output, and the normalization after
  it — because the normalization mentions the third layer's output several times: reading the second part over the
  first part's result as ONE array keeps every term small.
-/
import proofs.«117457_j70944269796072_1_alg».proof.Proof.RefKept

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The fold over two lists laid end to end is the fold over the second from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable {F : FTy → Type} [FloatOps F]

/-- The operations up to the third layer's output. -/
abbrev opsLayers : List (HloOp τ sig (Elt F)) :=
  [
    TRef.nullary main_call0.c (constantI S_ 32 0#32),
    TRef.unary main_call0.c main_call0.v0 (broadcastInDim S400000 ![] bcast_S_S400000),
    TRef.binary (.of main_arg3) main_call0.v0 main_call0.v1 (cmpi .slt),
    TRef.nullary main_call0.c_0 (constantI S_ 32 50000#32),
    TRef.unary main_call0.c_0 main_call0.v2 (broadcastInDim S400000 ![] bcast_S_S400000),
    TRef.binary (.of main_arg3) main_call0.v2 main_call0.v3 addi,
    TRef.ternary main_call0.v1 main_call0.v3 (.of main_arg3) main_call0.call0.v0 select,
    TRef.unary main_call0.call0.v0 main_call0.v5 (broadcastInDim S400000x1 ![0] bcast_S400000_S400000x1_0),
    TRef.nullary main_call0.c_1 (constantI S1 32 49999#32),
    TRef.nullary main_call0.c_2 (constantI S_ 32 0#32),
    TRef.unary main_call0.c_2 main_call0.v6 (broadcastInDim S400000x1 ![] bcast_S_S400000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S400000x1 ![0, 1] bcast_S1x1_S400000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S400000x1_S400000_d1 h_S_),
    TRef.binary (.of main_arg0) main_call0.v5 main_call0.v13 (fun x i => Host.gather gather_S50000x128_S400000x1_S400000x128_1_0_n_n_0_1_1128 x i),
    TRef.unary main_call0.v12 main_call0.v14 (broadcastInDim S400000x128 ![0] bcast_S400000_S400000x128_0),
    TRef.nullary main_call0.cst (constant S_ .f32 0x7FC00000#32),
    TRef.unary main_call0.cst main_call0.v15 (broadcastInDim S400000x128 ![] bcast_S_S400000x128),
    TRef.ternary main_call0.v14 main_call0.v13 main_call0.v15 main_call0.v16 select,
    TRef.nullary main_call1.c (constantI S_ 32 0#32),
    TRef.unary main_call1.c main_call1.v0 (broadcastInDim S400000 ![] bcast_S_S400000),
    TRef.binary (.of main_arg4) main_call1.v0 main_call1.v1 (cmpi .slt),
    TRef.nullary main_call1.c_0 (constantI S_ 32 50000#32),
    TRef.unary main_call1.c_0 main_call1.v2 (broadcastInDim S400000 ![] bcast_S_S400000),
    TRef.binary (.of main_arg4) main_call1.v2 main_call1.v3 addi,
    TRef.ternary main_call1.v1 main_call1.v3 (.of main_arg4) main_call1.call0.v0 select,
    TRef.unary main_call1.call0.v0 main_call1.v5 (broadcastInDim S400000x1 ![0] bcast_S400000_S400000x1_0),
    TRef.nullary main_call1.c_1 (constantI S1 32 49999#32),
    TRef.nullary main_call1.c_2 (constantI S_ 32 0#32),
    TRef.unary main_call1.c_2 main_call1.v6 (broadcastInDim S400000x1 ![] bcast_S_S400000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S400000x1 ![0, 1] bcast_S1x1_S400000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S400000x1_S400000_d1 h_S_),
    TRef.binary (.of main_arg1) main_call1.v5 main_call1.v13 (fun x i => Host.gather gather_S50000x128_S400000x1_S400000x128_1_0_n_n_0_1_1128 x i),
    TRef.unary main_call1.v12 main_call1.v14 (broadcastInDim S400000x128 ![0] bcast_S400000_S400000x128_0),
    TRef.nullary main_call1.cst (constant S_ .f32 0x7FC00000#32),
    TRef.unary main_call1.cst main_call1.v15 (broadcastInDim S400000x128 ![] bcast_S_S400000x128),
    TRef.ternary main_call1.v14 main_call1.v13 main_call1.v15 main_call1.v16 select,
    nary ![main_v0, main_v1, main_arg2] main_v2 (fun u => concatenate S400000x384 1 [⟨S400000x128, u 0⟩, ⟨S400000x128, u 1⟩, ⟨S400000x128, u 2⟩] concatenates_S400000x128_S400000x128_S400000x128_S400000x384_d1),
    binary main_v2 main_arg5 main_v3 (fun l r => Host.dotGeneral dot_S400000x384_S384x128_S400000x128_1_0_0_1_n_n none l r),
    unary main_arg6 main_v4 (broadcastInDim S1x128 ![1] bcast_S128_S1x128_1),
    unary main_v4 main_v5 (broadcastInDim S400000x128 ![0, 1] bcast_S1x128_S400000x128_0_1),
    binary main_v3 main_v5 main_v6 addf,
    TRef.nullary main_call2.cst (constant S_ .f32 0x00000000#32),
    TRef.unary main_call2.cst main_call2.v0 (broadcastInDim S400000x128 ![] bcast_S_S400000x128),
    TRef.binary (.of main_v6) main_call2.v0 main_call2.v1 maximumf,
    binary main_v7 main_arg7 main_v8 (fun l r => Host.dotGeneral dot_S400000x128_S128x128_S400000x128_1_0_0_1_n_n none l r),
    unary main_arg8 main_v9 (broadcastInDim S1x128 ![1] bcast_S128_S1x128_1),
    unary main_v9 main_v10 (broadcastInDim S400000x128 ![0, 1] bcast_S1x128_S400000x128_0_1),
    binary main_v8 main_v10 main_v11 addf,
    TRef.nullary main_call3.cst (constant S_ .f32 0x00000000#32),
    TRef.unary main_call3.cst main_call3.v0 (broadcastInDim S400000x128 ![] bcast_S_S400000x128),
    TRef.binary (.of main_v11) main_call3.v0 main_call3.v1 maximumf,
    binary main_v12 main_arg9 main_v13 (fun l r => Host.dotGeneral dot_S400000x128_S128x128_S400000x128_1_0_0_1_n_n none l r),
    unary main_arg10 main_v14 (broadcastInDim S1x128 ![1] bcast_S128_S1x128_1),
    unary main_v14 main_v15 (broadcastInDim S400000x128 ![0, 1] bcast_S1x128_S400000x128_0_1),
    binary main_v13 main_v15 main_v16 addf ]

/-- The normalization's operations. -/
abbrev opsNorm : List (HloOp τ sig (Elt F)) :=
  [
    nullary main_cst (constant S_ .f32 0x00000000#32),
    binary main_v16 main_cst main_v17 (fun x v => Host.reduceAdd x v reducesTo_S400000x128_S400000_d1 h_S_),
    unary main_v17 main_v18 (broadcastInDim S400000x1 ![0] bcast_S400000_S400000x1_0),
    nullary main_cst_0 (constant S_ .f32 0x43000000#32),
    unary main_cst_0 main_v19 (broadcastInDim S400000x1 ![] bcast_S_S400000x1),
    binary main_v18 main_v19 main_v20 Host.divf,
    unary main_v20 main_v21 (broadcastInDim S400000x128 ![0, 1] bcast_S400000x1_S400000x128_0_1),
    binary main_v16 main_v21 main_v22 subf,
    binary main_v22 main_v22 main_v23 mulf,
    nullary main_cst_1 (constant S_ .f32 0x00000000#32),
    binary main_v23 main_cst_1 main_v24 (fun x v => Host.reduceAdd x v reducesTo_S400000x128_S400000_d1 h_S_),
    unary main_v24 main_v25 (broadcastInDim S400000x1 ![0] bcast_S400000_S400000x1_0),
    nullary main_cst_2 (constant S_ .f32 0x43000000#32),
    unary main_cst_2 main_v26 (broadcastInDim S400000x1 ![] bcast_S_S400000x1),
    binary main_v25 main_v26 main_v27 Host.divf,
    unary main_v20 main_v28 (broadcastInDim S400000x128 ![0, 1] bcast_S400000x1_S400000x128_0_1),
    binary main_v16 main_v28 main_v29 subf,
    nullary main_cst_3 (constant S_ .f32 0x358637BD#32),
    unary main_cst_3 main_v30 (broadcastInDim S400000x1 ![] bcast_S_S400000x1),
    binary main_v27 main_v30 main_v31 addf,
    unary main_v31 main_v32 Host.rsqrt,
    unary main_v32 main_v33 (broadcastInDim S400000x128 ![0, 1] bcast_S400000x1_S400000x128_0_1),
    binary main_v29 main_v33 main_v34 mulf,
    unary main_arg11 main_v35 (broadcastInDim S1x128 ![1] bcast_S128_S1x128_1),
    unary main_v35 main_v36 (broadcastInDim S400000x128 ![0, 1] bcast_S1x128_S400000x128_0_1),
    binary main_v34 main_v36 main_v37 mulf,
    unary main_arg12 main_v38 (broadcastInDim S1x128 ![1] bcast_S128_S1x128_1),
    unary main_v38 main_v39 (broadcastInDim S400000x128 ![0, 1] bcast_S1x128_S400000x128_0_1),
    binary main_v37 main_v39 main_v40 addf ]

theorem ops_split : (ops : List (HloOp τ sig (Elt F))) = opsLayers ++ opsNorm := rfl

/-- The third layer's output as a function of the first eleven arguments. -/
def layersOut (a0 a1 : (⟨S50000x128, .f32⟩ : BufTy).Contents (Elt F)) (a2 : (⟨S400000x128, .f32⟩ : BufTy).Contents (Elt F)) (a3 a4 : (⟨S400000, .i32⟩ : BufTy).Contents (Elt F))
    (a5 : (⟨S384x128, .f32⟩ : BufTy).Contents (Elt F)) (a6 : (⟨S128, .f32⟩ : BufTy).Contents (Elt F)) (a7 : (⟨S128x128, .f32⟩ : BufTy).Contents (Elt F)) (a8 : (⟨S128, .f32⟩ : BufTy).Contents (Elt F))
    (a9 : (⟨S128x128, .f32⟩ : BufTy).Contents (Elt F)) (a10 : (⟨S128, .f32⟩ : BufTy).Contents (Elt F)) : (⟨S400000x128, .f32⟩ : BufTy).Contents (Elt F) :=
  affine (reluH (affine (reluH (affine1 (catRows (takeRows a0 a3) (takeRows a1 a4) a2) a5 a6)) a7 a8)) a9 a10

/-- The concatenation's operation leaves its result buffer at the three operands' contents laid side by side. -/
theorem cat_result' (G : Valuation τ sig (Elt F)) :
    (nary (τ := τ) ![main_v0, main_v1, main_arg2] main_v2 (fun u => concatenate S400000x384 1 [⟨S400000x128, u 0⟩, ⟨S400000x128, u 1⟩, ⟨S400000x128, u 2⟩] concatenates_S400000x128_S400000x128_S400000x128_S400000x384_d1)).result G (no_index (Proc.devRef .tc main_v2))
      = catRows (G (Proc.devRef .tc main_v0)) (G (Proc.devRef .tc main_v1)) (G (Proc.devRef .tc main_arg2)) := by
  rw [nary_result]; rfl

attribute [local irreducible] Host.reduce Host.gather in
set_option maxRecDepth 16384 in
set_option maxHeartbeats 1600000 in
theorem layers_eq (V : Valuation τ sig (Elt F)) :
    after opsLayers V (main_v16 : DevRef τ sig) = layersOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp (disch := decide) only [after_cons, after_nil, nullary_result', unary_result', binary_result', ternary_result', cat_result',
    nullary_result_ne', unary_result_ne', binary_result_ne', ternary_result_ne', nary_result_ne']
  simp only [layersOut, affine, affine1, reluH, rowBias, takeRows]
  rfl

set_option maxRecDepth 16384 in
set_option maxHeartbeats 1600000 in
theorem layers_kept11 (V : Valuation τ sig (Elt F)) : after opsLayers V (main_arg11 : DevRef τ sig) = V (main_arg11 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem layers_kept12 (V : Valuation τ sig (Elt F)) : after opsLayers V (main_arg12 : DevRef τ sig) = V (main_arg12 : DevRef τ sig) := by
  simp (disch := decide) only [after_cons, after_nil, nullary_result', unary_result', binary_result', ternary_result', concat3_result',
    nullary_result_ne', unary_result_ne', binary_result_ne', ternary_result_ne', nary_result_ne']

set_option maxRecDepth 16384 in
set_option maxHeartbeats 1600000 in
theorem norm_eq (W : Valuation τ sig (Elt F)) :
    after opsNorm W (main_v40 : DevRef τ sig)
      = addf (mulf (normRows (W (main_v16 : DevRef τ sig))) (rowBias (W (main_arg11 : DevRef τ sig)))) (rowBias (W (main_arg12 : DevRef τ sig))) := by
  simp (disch := decide) only [after_cons, after_nil, nullary_result', unary_result', binary_result', ternary_result', concat3_result',
    nullary_result_ne', unary_result_ne', binary_result_ne', ternary_result_ne', nary_result_ne']
  simp only [normRows, meanCol, spread, rowBias]

/-- The result buffer after the list: the stages composed. -/
theorem out_eq (V : Valuation τ sig (Elt F)) :
    after ops V (main_v40 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [ops_split, after_append, norm_eq, layers_eq, layers_kept11, layers_kept12]
  rfl

/-- Every execution of the reference ends with its result at `refOut` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v40).trans (out_eq _),
      (h c main_arg0).trans (main_arg0_kept _),
      (h c main_arg1).trans (main_arg1_kept _),
      (h c main_arg2).trans (main_arg2_kept _),
      (h c main_arg3).trans (main_arg3_kept _),
      (h c main_arg4).trans (main_arg4_kept _),
      (h c main_arg5).trans (main_arg5_kept _),
      (h c main_arg6).trans (main_arg6_kept _),
      (h c main_arg7).trans (main_arg7_kept _),
      (h c main_arg8).trans (main_arg8_kept _),
      (h c main_arg9).trans (main_arg9_kept _),
      (h c main_arg10).trans (main_arg10_kept _),
      (h c main_arg11).trans (main_arg11_kept _),
      (h c main_arg12).trans (main_arg12_kept _)⟩)
    (run_fold m ρ)

end Cert.ReferenceIdeal.HostRun

end
-- ==== Proof.RefRow.lean ====
/-
  The reference's stages, read at one entry.

  Each stage of the reference's result is a whole-array function; read at an entry of row `e` it depends only on row `e`
  of what it is applied to: a product is a sum over the shared coordinate, a bias or a scale is the vector's entry at the
  column, a row mean is the row's sum over 128, and a column repeated along the rows gives back the column's entry. Put
  together, row `e` of the reference's result is the edge-row function of the three rows of edge `e`.
-/
import proofs.«117457_j70944269796072_1_alg».proof.Proof.RefRun
import proofs.«117457_j70944269796072_1_alg».proof.Proof.EdgeRowConcat
import Idealize.ShloMosaic.PureOps.Ideal.Laws
import Idealize.ShloMosaic.Lib.IdealHost
import Idealize.ShloMosaic.Lib.ValueIdx

noncomputable section

namespace Cert.ReferenceIdeal.Row

open Cert.ReferenceIdeal Cert.ReferenceIdeal.Gen Cert.ReferenceIdeal.HostRun Idealize.ShloMosaic Idealize.ShloMosaic.ValueIdx Cert.EdgeRow

/-- Coordinates of the operand indices of the 400000 × 384 by 384 × 128 product at output index `i` and contraction index `q`. -/
theorem wide_lhs0 (i : S400000x128.Idx) (q : dot_S400000x384_S384x128_S400000x128_1_0_0_1_n_n.contr.Idx) : (dot_S400000x384_S384x128_S400000x128_1_0_0_1_n_n.lhsIdx i q 0).val = (i 0).val := by
  unfold DotDims.lhsIdx
  rw [dif_neg (show ¬(0 : Fin S400000x384.rank) ∈ dot_S400000x384_S384x128_S400000x128_1_0_0_1_n_n.lhsBatch by decide), dif_pos (show (0 : Fin S400000x384.rank) ∈ dot_S400000x384_S384x128_S400000x128_1_0_0_1_n_n.lhsNonContracting by decide)]
  rfl
theorem wide_lhs1 (i : S400000x128.Idx) (q : dot_S400000x384_S384x128_S400000x128_1_0_0_1_n_n.contr.Idx) : (dot_S400000x384_S384x128_S400000x128_1_0_0_1_n_n.lhsIdx i q 1).val = (q ⟨0, by decide⟩).val :=
  dot_S400000x384_S384x128_S400000x128_1_0_0_1_n_n.lhsIdx_val_of_single rfl i q
theorem wide_rhs0 (i : S400000x128.Idx) (q : dot_S400000x384_S384x128_S400000x128_1_0_0_1_n_n.contr.Idx) : (dot_S400000x384_S384x128_S400000x128_1_0_0_1_n_n.rhsIdx i q 0).val = (q ⟨0, by decide⟩).val :=
  dot_S400000x384_S384x128_S400000x128_1_0_0_1_n_n.rhsIdx_val_of_single rfl i q
theorem wide_rhs1 (i : S400000x128.Idx) (q : dot_S400000x384_S384x128_S400000x128_1_0_0_1_n_n.contr.Idx) : (dot_S400000x384_S384x128_S400000x128_1_0_0_1_n_n.rhsIdx i q 1).val = (i 1).val := by
  unfold DotDims.rhsIdx
  rw [dif_neg (show ¬(1 : Fin S384x128.rank) ∈ dot_S400000x384_S384x128_S400000x128_1_0_0_1_n_n.rhsBatch by decide), dif_pos (show (1 : Fin S384x128.rank) ∈ dot_S400000x384_S384x128_S400000x128_1_0_0_1_n_n.rhsNonContracting by decide)]
  rfl

/-- The product's sum over the contraction index, re-indexed by the shared coordinate: entry `(p, q)` is the sum over `k` of
    the left operand at `(p, k)` times the right operand at `(k, q)`. -/
theorem wide_sum (A : S400000x384.Idx → EReal) (B : S384x128.Idx → EReal) (p : Fin 400000) (q : Fin 128) :
    (∑ k : dot_S400000x384_S384x128_S400000x128_1_0_0_1_n_n.contr.Idx, A (dot_S400000x384_S384x128_S400000x128_1_0_0_1_n_n.lhsIdx (ix2 p q) k) * B (dot_S400000x384_S384x128_S400000x128_1_0_0_1_n_n.rhsIdx (ix2 p q) k))
      = ∑ k : Fin 384, A (ix2 p k) * B (ix2 k q) := by
  rw [← Equiv.sum_comp (contrEquiv1 dot_S400000x384_S384x128_S400000x128_1_0_0_1_n_n 384 rfl rfl).symm]
  refine Finset.sum_congr rfl fun k _ => ?_
  have hk := contrEquiv1_symm_val dot_S400000x384_S384x128_S400000x128_1_0_0_1_n_n 384 rfl rfl k
  have el : dot_S400000x384_S384x128_S400000x128_1_0_0_1_n_n.lhsIdx (ix2 p q) ((contrEquiv1 dot_S400000x384_S384x128_S400000x128_1_0_0_1_n_n 384 rfl rfl).symm k) = ix2 p k := funext fun a => Fin.ext (by
    match a with
    | ⟨0, _⟩ => exact wide_lhs0 _ _
    | ⟨1, _⟩ => exact (wide_lhs1 _ _).trans hk)
  have er : dot_S400000x384_S384x128_S400000x128_1_0_0_1_n_n.rhsIdx (ix2 p q) ((contrEquiv1 dot_S400000x384_S384x128_S400000x128_1_0_0_1_n_n 384 rfl rfl).symm k) = ix2 k q := funext fun a => Fin.ext (by
    match a with
    | ⟨0, _⟩ => exact (wide_rhs0 _ _).trans hk
    | ⟨1, _⟩ => exact wide_rhs1 _ _)
  rw [el, er]

/-- Coordinates of the operand indices of the 400000 × 128 by 128 × 128 product at output index `i` and contraction index `q`. -/
theorem square_lhs0 (i : S400000x128.Idx) (q : dot_S400000x128_S128x128_S400000x128_1_0_0_1_n_n.contr.Idx) : (dot_S400000x128_S128x128_S400000x128_1_0_0_1_n_n.lhsIdx i q 0).val = (i 0).val := by
  unfold DotDims.lhsIdx
  rw [dif_neg (show ¬(0 : Fin S400000x128.rank) ∈ dot_S400000x128_S128x128_S400000x128_1_0_0_1_n_n.lhsBatch by decide), dif_pos (show (0 : Fin S400000x128.rank) ∈ dot_S400000x128_S128x128_S400000x128_1_0_0_1_n_n.lhsNonContracting by decide)]
  rfl
theorem square_lhs1 (i : S400000x128.Idx) (q : dot_S400000x128_S128x128_S400000x128_1_0_0_1_n_n.contr.Idx) : (dot_S400000x128_S128x128_S400000x128_1_0_0_1_n_n.lhsIdx i q 1).val = (q ⟨0, by decide⟩).val :=
  dot_S400000x128_S128x128_S400000x128_1_0_0_1_n_n.lhsIdx_val_of_single rfl i q
theorem square_rhs0 (i : S400000x128.Idx) (q : dot_S400000x128_S128x128_S400000x128_1_0_0_1_n_n.contr.Idx) : (dot_S400000x128_S128x128_S400000x128_1_0_0_1_n_n.rhsIdx i q 0).val = (q ⟨0, by decide⟩).val :=
  dot_S400000x128_S128x128_S400000x128_1_0_0_1_n_n.rhsIdx_val_of_single rfl i q
theorem square_rhs1 (i : S400000x128.Idx) (q : dot_S400000x128_S128x128_S400000x128_1_0_0_1_n_n.contr.Idx) : (dot_S400000x128_S128x128_S400000x128_1_0_0_1_n_n.rhsIdx i q 1).val = (i 1).val := by
  unfold DotDims.rhsIdx
  rw [dif_neg (show ¬(1 : Fin S128x128.rank) ∈ dot_S400000x128_S128x128_S400000x128_1_0_0_1_n_n.rhsBatch by decide), dif_pos (show (1 : Fin S128x128.rank) ∈ dot_S400000x128_S128x128_S400000x128_1_0_0_1_n_n.rhsNonContracting by decide)]
  rfl

/-- The product's sum over the contraction index, re-indexed by the shared coordinate: entry `(p, q)` is the sum over `k` of
    the left operand at `(p, k)` times the right operand at `(k, q)`. -/
theorem square_sum (A : S400000x128.Idx → EReal) (B : S128x128.Idx → EReal) (p : Fin 400000) (q : Fin 128) :
    (∑ k : dot_S400000x128_S128x128_S400000x128_1_0_0_1_n_n.contr.Idx, A (dot_S400000x128_S128x128_S400000x128_1_0_0_1_n_n.lhsIdx (ix2 p q) k) * B (dot_S400000x128_S128x128_S400000x128_1_0_0_1_n_n.rhsIdx (ix2 p q) k))
      = ∑ k : Fin 128, A (ix2 p k) * B (ix2 k q) := by
  rw [← Equiv.sum_comp (contrEquiv1 dot_S400000x128_S128x128_S400000x128_1_0_0_1_n_n 128 rfl rfl).symm]
  refine Finset.sum_congr rfl fun k _ => ?_
  have hk := contrEquiv1_symm_val dot_S400000x128_S128x128_S400000x128_1_0_0_1_n_n 128 rfl rfl k
  have el : dot_S400000x128_S128x128_S400000x128_1_0_0_1_n_n.lhsIdx (ix2 p q) ((contrEquiv1 dot_S400000x128_S128x128_S400000x128_1_0_0_1_n_n 128 rfl rfl).symm k) = ix2 p k := funext fun a => Fin.ext (by
    match a with
    | ⟨0, _⟩ => exact square_lhs0 _ _
    | ⟨1, _⟩ => exact (square_lhs1 _ _).trans hk)
  have er : dot_S400000x128_S128x128_S400000x128_1_0_0_1_n_n.rhsIdx (ix2 p q) ((contrEquiv1 dot_S400000x128_S128x128_S400000x128_1_0_0_1_n_n 128 rfl rfl).symm k) = ix2 k q := funext fun a => Fin.ext (by
    match a with
    | ⟨0, _⟩ => exact (square_rhs0 _ _).trans hk
    | ⟨1, _⟩ => exact square_rhs1 _ _)
  rw [el, er]

/-- A vector repeated in every row, at `(e, q)`: the vector's entry `q`. -/
theorem rowBias_apply (b : FVec Ideal S128 .f32) (e : Fin 400000) (q : Fin 128) : rowBias (F := Ideal) b (ix2 e q) = b (ix1 q) := by
  unfold rowBias
  rw [broadcastInDim_apply _ _ _ (ix2 e q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

/-- The maximum with zero, entry by entry. -/
theorem reluH_apply (v : FVec Ideal S400000x128 .f32) (i : S400000x128.Idx) :
    reluH (F := Ideal) v i = max (v i) (Ideal.ofBits .f32 0x00000000#32) := rfl

/-- The three rows of edge `e` laid end to end. -/
theorem catRows_apply (s r x : FVec Ideal S400000x128 .f32) (e : Fin 400000) (k : Fin 384) :
    catRows (F := Ideal) s r x (ix2 e k) = cat3 (fun j => s (ix2 e j)) (fun j => r (ix2 e j)) (fun j => x (ix2 e j)) k :=
  concat3_apply s r x _ e k

/-- The first layer at `(e, q)`. -/
theorem affine1_apply (x : FVec Ideal S400000x384 .f32) (W : FVec Ideal S384x128 .f32) (b : FVec Ideal S128 .f32) (e : Fin 400000) (q : Fin 128) :
    affine1 (F := Ideal) x W b (ix2 e q) = (∑ k : Fin 384, x (ix2 e k) * W (ix2 k q)) + b (ix1 q) := by
  unfold affine1
  rw [addf_apply, rowBias_apply]
  simp only [Host.dotGeneral]
  rw [Ideal.dotGeneral_apply, wide_sum]

/-- A later layer at `(e, q)`. -/
theorem affine_apply (h : FVec Ideal S400000x128 .f32) (W : FVec Ideal S128x128 .f32) (b : FVec Ideal S128 .f32) (e : Fin 400000) (q : Fin 128) :
    affine (F := Ideal) h W b (ix2 e q) = (∑ k : Fin 128, h (ix2 e k) * W (ix2 k q)) + b (ix1 q) := by
  unfold HostRun.affine
  rw [addf_apply, rowBias_apply]
  simp only [Host.dotGeneral]
  rw [Ideal.dotGeneral_apply, square_sum]

/-- A row's mean, as the column's entry. -/
theorem meanCol_apply (y : FVec Ideal S400000x128 .f32) (e : Fin 400000) :
    meanCol (F := Ideal) y (ix2 e (0 : Fin 1)) = mean (fun k => y (ix2 e k)) := by
  unfold meanCol mean
  rw [hostDivf_apply, broadcastInDim_scalar_apply]
  rw [broadcastInDim_apply _ _ _ (ix2 e (0 : Fin 1)) (ix1 e) (fun a => by
    match a with
    | ⟨0, _⟩ => rfl)]
  rw [hostReduceAdd_apply, Ideal.hostReduceAdd_single reducesTo_S400000x128_S400000_d1 (by decide)]
  have e0 : (constant (F := Ideal) S_ .f32 0x00000000#32) (Shape.Idx.first h_S_) = 0 := Ideal.ofBits_zero_f32
  rw [e0, zero_add]
  refine congrArg (fun s => Ideal.div s _) (Finset.sum_congr rfl fun k _ => congrArg y (funext fun a => Fin.ext (by
    match a with
    | ⟨0, _⟩ => rfl
    | ⟨1, _⟩ => rfl)))

/-- A column repeated along the rows, at `(e, q)`: the column's entry `e`. -/
theorem spread_apply (v : FVec Ideal S400000x1 .f32) (e : Fin 400000) (q : Fin 128) : spread (F := Ideal) v (ix2 e q) = v (ix2 e (0 : Fin 1)) := by
  unfold spread
  exact broadcastInDim_apply _ _ _ (ix2 e q) (ix2 e (0 : Fin 1)) (fun a => by
    match a with
    | ⟨0, _⟩ => rfl
    | ⟨1, _⟩ => rfl)

/-- The normalized rows at `(e, q)`. -/
theorem normRows_apply (y : FVec Ideal S400000x128 .f32) (e : Fin 400000) (q : Fin 128) :
    normRows (F := Ideal) y (ix2 e q)
      = (y (ix2 e q) - mean (fun k => y (ix2 e k)))
        * Ideal.rsqrt (mean (fun k => (y (ix2 e k) - mean (fun k => y (ix2 e k))) * (y (ix2 e k) - mean (fun k => y (ix2 e k))))
            + Ideal.ofBits .f32 0x358637BD#32) := by
  have hd : ∀ k : Fin 128, (mulf (subf y (spread (F := Ideal) (meanCol (F := Ideal) y))) (subf y (spread (F := Ideal) (meanCol (F := Ideal) y)))) (ix2 e k)
      = (y (ix2 e k) - mean (fun k => y (ix2 e k))) * (y (ix2 e k) - mean (fun k => y (ix2 e k))) := fun k => by
    rw [mulf_apply, subf_apply, spread_apply, meanCol_apply]
  have hv : meanCol (F := Ideal) (mulf (subf y (spread (F := Ideal) (meanCol (F := Ideal) y))) (subf y (spread (F := Ideal) (meanCol (F := Ideal) y)))) (ix2 e (0 : Fin 1))
      = mean (fun k => (y (ix2 e k) - mean (fun k => y (ix2 e k))) * (y (ix2 e k) - mean (fun k => y (ix2 e k)))) := by
    rw [meanCol_apply]; exact congrArg mean (funext hd)
  unfold normRows
  rw [mulf_apply, subf_apply, spread_apply, spread_apply, meanCol_apply]
  show _ * Ideal.rsqrt (meanCol (F := Ideal) (mulf (subf y (spread (F := Ideal) (meanCol (F := Ideal) y))) (subf y (spread (F := Ideal) (meanCol (F := Ideal) y)))) (ix2 e (0 : Fin 1)) + Ideal.ofBits .f32 0x358637BD#32) = _
  rw [hv]

/-- Row `e` of the reference's result is the edge-row function of edge `e`'s three rows and the weights. -/
theorem refOut_apply (a0 a1 : FVec Ideal S50000x128 .f32) (a2 : FVec Ideal S400000x128 .f32) (a3 a4 : (⟨S400000, .i32⟩ : BufTy).Contents (Elt Ideal))
    (a5 : FVec Ideal S384x128 .f32) (a6 : FVec Ideal S128 .f32) (a7 : FVec Ideal S128x128 .f32) (a8 : FVec Ideal S128 .f32)
    (a9 : FVec Ideal S128x128 .f32) (a10 a11 a12 : FVec Ideal S128 .f32) (e : Fin 400000) (q : Fin 128) :
    refOut (F := Ideal) a0 a1 a2 a3 a4 a5 a6 a7 a8 a9 a10 a11 a12 (ix2 e q)
      = out (fun j => takeRows (F := Ideal) a0 a3 (ix2 e j)) (fun j => takeRows (F := Ideal) a1 a4 (ix2 e j)) (fun j => a2 (ix2 e j))
          (fun k j => a5 (ix2 k j)) (fun j => a6 (ix1 j)) (fun k j => a7 (ix2 k j)) (fun j => a8 (ix1 j))
          (fun k j => a9 (ix2 k j)) (fun j => a10 (ix1 j)) (fun j => a11 (ix1 j)) (fun j => a12 (ix1 j)) q := by
  unfold refOut
  rw [addf_apply, mulf_apply, rowBias_apply, rowBias_apply, normRows_apply]
  simp only [affine_apply, reluH_apply, affine1_apply, catRows_apply]
  rfl

end Cert.ReferenceIdeal.Row

end
-- ==== Proof.Bridge.lean ====
/-
  The two results are one function of the arguments.

  Row `e` of the reference's result is the edge-row function of edge `e`'s gathered sender row, gathered receiver row and
  own row; so is row `e` of the kernel's whole-array function. The two gathers are the same operations of the same
  arguments, and the kernel's one-row matrices read at column `j` are the vectors' entries `j`. So the two arrays agree
  entry by entry — no law of arithmetic is needed, only the reading of both sides.
-/
import proofs.«117457_j70944269796072_1_alg».proof.Proof.KernelRun
import proofs.«117457_j70944269796072_1_alg».proof.Proof.RefRow

noncomputable section

namespace Cert.Bridge

open Idealize.ShloMosaic Idealize.ShloMosaic.ValueIdx

attribute [local irreducible] Host.reduce Host.gather in
set_option maxRecDepth 8192 in
theorem result_eq (a0 a1 : (⟨Cert.ReferenceIdeal.S50000x128, .f32⟩ : BufTy).Contents (Elt Ideal)) (a2 : (⟨Cert.ReferenceIdeal.S400000x128, .f32⟩ : BufTy).Contents (Elt Ideal)) (a3 a4 : (⟨Cert.ReferenceIdeal.S400000, .i32⟩ : BufTy).Contents (Elt Ideal))
    (a5 : (⟨Cert.ReferenceIdeal.S384x128, .f32⟩ : BufTy).Contents (Elt Ideal)) (a6 : (⟨Cert.ReferenceIdeal.S128, .f32⟩ : BufTy).Contents (Elt Ideal)) (a7 : (⟨Cert.ReferenceIdeal.S128x128, .f32⟩ : BufTy).Contents (Elt Ideal)) (a8 : (⟨Cert.ReferenceIdeal.S128, .f32⟩ : BufTy).Contents (Elt Ideal))
    (a9 : (⟨Cert.ReferenceIdeal.S128x128, .f32⟩ : BufTy).Contents (Elt Ideal)) (a10 a11 a12 : (⟨Cert.ReferenceIdeal.S128, .f32⟩ : BufTy).Contents (Elt Ideal)) :
    Cert.ReferenceIdeal.HostRun.refOut (F := Ideal) a0 a1 a2 a3 a4 a5 a6 a7 a8 a9 a10 a11 a12
      = Cert.KernelIdeal.Whole.G (Cert.KernelIdeal.Entry.takeRows (F := Ideal) a0 a3) (Cert.KernelIdeal.Entry.takeRows (F := Ideal) a1 a4) a2 a5
          (shapeCast Cert.KernelIdeal.S1x128 a6 Cert.KernelIdeal.Gen.shapeCasts_S128_S1x128) a7
          (shapeCast Cert.KernelIdeal.S1x128 a8 Cert.KernelIdeal.Gen.shapeCasts_S128_S1x128) a9
          (shapeCast Cert.KernelIdeal.S1x128 a10 Cert.KernelIdeal.Gen.shapeCasts_S128_S1x128)
          (shapeCast Cert.KernelIdeal.S1x128 a11 Cert.KernelIdeal.Gen.shapeCasts_S128_S1x128)
          (shapeCast Cert.KernelIdeal.S1x128 a12 Cert.KernelIdeal.Gen.shapeCasts_S128_S1x128) := by
  funext i
  obtain ⟨e, q, rfl⟩ : ∃ (e : Fin 400000) (q : Fin 128), i = ix2 e q := ⟨i 0, i 1, eq_ix2 i⟩
  rw [Cert.ReferenceIdeal.Row.refOut_apply]
  unfold Cert.KernelIdeal.Whole.G
  simp only [Cert.Layout.shapeCast_row_apply]
  rfl

end Cert.Bridge

end
-- ==== Proof.lean ====
/-
  An edge update of a graph network: for each of 400000 edges, the sender's and the receiver's feature rows are gathered
  from two node tables, laid end to end with the edge's own row, sent through three affine layers (a maximum with zero
  after the first two) and normalized over the 128 outputs. The kernel gathers on the host and runs the layers and the
  normalization in one pipelined call over 100 blocks of 4000 edges; the reference does everything as whole-array
  operations.

  At the ideal instance the kernel's conversions to the narrower float format are the identity and each product is the
  exact sum over the shared coordinate, so on both sides row `e` of the result is ONE function of edge `e`'s three rows and
  the weights (Proof/EdgeRow.lean). The kernel's side reads the body at an entry of a block (Proof/KernelRow.lean), passes
  from blocks to the array (Proof/KernelArray.lean) and names the arrays the windows find (Proof/KernelEntry.lean); the
  reference's side reads the program back as a composition of stages (Proof/RefRun.lean, RefKept.lean, RefOut.lean) and
  reads each stage at an entry (Proof/RefRow.lean); Proof/Bridge.lean joins them. The equality needs no law of
  arithmetic and never uses the finiteness of the inputs. The ideal pass rewrote nothing, so `preserves` is trivial.
-/
import proofs.«117457_j70944269796072_1_alg».proof.Defs
import proofs.«117457_j70944269796072_1_alg».proof.Proof.Gen.Kernel
import proofs.«117457_j70944269796072_1_alg».proof.Proof.Gen.Kernel.Frame
import proofs.«117457_j70944269796072_1_alg».proof.Proof.Gen.KernelIdeal
import proofs.«117457_j70944269796072_1_alg».proof.Proof.Gen.KernelIdeal.Frame
import proofs.«117457_j70944269796072_1_alg».proof.Proof.Gen.ReferenceIdeal
import proofs.«117457_j70944269796072_1_alg».proof.Proof.Gen.Pre_finite_inputs
import proofs.«117457_j70944269796072_1_alg».proof.Proof.KernelRun
import proofs.«117457_j70944269796072_1_alg».proof.Proof.RefOut
import proofs.«117457_j70944269796072_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both programs end with the result at the same function of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  obtain ⟨g0, g1, g2, g3, g4, g5, g6, g7, g8, g9, g10, g11, g12⟩ := hagree c
  rw [g0, g1, g2, g3, g4, g5, g6, g7, g8, g9, g10, g11, g12]
  exact Cert.Bridge.result_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
